-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_v39) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x26x26x15 : Shape := ⟨4, ![2048, 26, 26, 15]⟩
abbrev S2048x10140 : Shape := ⟨2, ![2048, 10140]⟩
abbrev S_ : Shape := ⟨0, ![]⟩

class Facts : Prop where
  bcast_S_S2048x26x26x15 : S_.BroadcastsInDim S2048x26x26x15 (![] : Fin 0 → Fin S2048x26x26x15.rank)
  reducesTo_S2048x26x26x15_S_d0_1_2_3 : S2048x26x26x15.ReducesTo [0, 1, 2, 3] S_
  h_S_ : 0 < S_.numel
  bcast_S_S2048x10140 : S_.BroadcastsInDim S2048x10140 (![] : Fin 0 → Fin S2048x10140.rank)
  reducesTo_S2048x10140_S_d0_1 : S2048x10140.ReducesTo [0, 1] S_

variable [Facts]

def fn {F : FTy → Type} [FloatOps F] (main_arg0 : FVec F S2048x26x26x15 .f32) (main_arg1 : FVec F S2048x10140 .f32) : IVec S_ 1 :=
  let main_v0 : FVec F S2048x26x26x15 .f32 := Host.absf main_arg0
  let main_cst : FVec F S_ .f32 := constant S_ .f32 0x7F800000#32
  let main_v1 : FVec F S2048x26x26x15 .f32 := broadcastInDim S2048x26x26x15 ![] bcast_S_S2048x26x26x15 main_cst
  let main_v2 : IVec S2048x26x26x15 1 := cmpf .olt main_v0 main_v1
  let main_c : IVec S_ 1 := constantI S_ 1 1#1
  let main_v3 : IVec S_ 1 := (fun x v => Host.reduce IntOp.andi x v reducesTo_S2048x26x26x15_S_d0_1_2_3 h_S_) main_v2 main_c
  let main_v4 : FVec F S2048x10140 .f32 := Host.absf main_arg1
  let main_cst_0 : FVec F S_ .f32 := constant S_ .f32 0x7F800000#32
  let main_v5 : FVec F S2048x10140 .f32 := broadcastInDim S2048x10140 ![] bcast_S_S2048x10140 main_cst_0
  let main_v6 : IVec S2048x10140 1 := cmpf .olt main_v4 main_v5
  let main_c_1 : IVec S_ 1 := constantI S_ 1 1#1
  let main_v7 : IVec S_ 1 := (fun x v => Host.reduce IntOp.andi x v reducesTo_S2048x10140_S_d0_1 h_S_) main_v6 main_c_1
  let main_v8 : IVec S_ 1 := andi main_v3 main_v7
  main_v8
-- ==== Kernel.lean ====
abbrev S2048x26x26x15 : Shape := ⟨4, ![2048, 26, 26, 15]⟩
abbrev S2048x10140 : Shape := ⟨2, ![2048, 10140]⟩
abbrev S2048x676x15 : Shape := ⟨3, ![2048, 676, 15]⟩
abbrev S8x128 : Shape := ⟨2, ![8, 128]⟩
abbrev S8x676x15 : Shape := ⟨3, ![8, 676, 15]⟩
abbrev S8x676x1 : Shape := ⟨3, ![8, 676, 1]⟩
abbrev S8x676 : Shape := ⟨2, ![8, 676]⟩
abbrev S8x676x4 : Shape := ⟨3, ![8, 676, 4]⟩
abbrev S8 : Shape := ⟨1, ![8]⟩
abbrev S8x1 : Shape := ⟨2, ![8, 1]⟩
abbrev S1 : Shape := ⟨1, ![1]⟩
abbrev S1x1 : Shape := ⟨2, ![1, 1]⟩
abbrev S8x676x10 : Shape := ⟨3, ![8, 676, 10]⟩
abbrev S_ : Shape := ⟨0, ![]⟩

abbrev nBuf : Space → Nat
  | .hbm => 13
  | .vmem => 6
  | .smem => 0
  | _ => 0

abbrev bufTy : (tb : Table) → Fin (tcTables nBuf tb) → BufTy
  | .hbm, ⟨0, _⟩ => ⟨S2048x26x26x15, .f32⟩
  | .hbm, ⟨1, _⟩ => ⟨S2048x10140, .f32⟩
  | .hbm, ⟨2, _⟩ => ⟨S2048x676x15, .f32⟩
  | .hbm, ⟨3, _⟩ => ⟨S2048x676x15, .f32⟩
  | .hbm, ⟨4, _⟩ => ⟨S8x128, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S_, .f32⟩
  | .hbm, ⟨9, _⟩ => ⟨S1x1, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S8x676x15, .f32⟩
  | .local _ .vmem, ⟨1, _⟩ => ⟨S8x676x15, .f32⟩
  | .local _ .vmem, ⟨2, _⟩ => ⟨S8x676x15, .f32⟩
  | .local _ .vmem, ⟨3, _⟩ => ⟨S8x676x15, .f32⟩
  | .local _ .vmem, ⟨4, _⟩ => ⟨S8x128, .f32⟩
  | .local _ .vmem, ⟨5, _⟩ => ⟨S8x128, .f32⟩
  | _, _ => ⟨S2048x26x26x15, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![256], ![false]⟩

def k0_cond2 (i : grid0.Coords) : BitVec 1 :=
  let arg0 : BitVec 32 := BitVec.ofNat 32 (i 0).val
  let c255_i32 : BitVec 32 := 255#32
  let v67 : BitVec 1 := Scalar.cmpi .eq arg0 c255_i32
  let v68 : BitVec 32 := Scalar.extui v67
  let c0_i32_29 : BitVec 32 := 0#32
  let v69 : BitVec 1 := Scalar.cmpi .ne v68 c0_i32_29
  v69

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x676x15 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x676x15 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S2048x26x26x15_S2048x676x15 : S2048x26x26x15.ShapeCasts S2048x676x15
  shapeCasts_S2048x10140_S2048x676x15 : S2048x10140.ShapeCasts S2048x676x15
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8x676x15_S8x676x15_0_0_0 : ∀ a, (![0, 0, 0] : Fin 3 → Nat) a + S8x676x15.size a ≤ S8x676x15.size a
  h_S8x676x15 : 0 < S8x676x15.numel
  shapeCasts_S8x676x15_S8x676x15 : S8x676x15.ShapeCasts S8x676x15
  slices_S8x676x15_o0_0_4_S8x676x1 : S8x676x15.Slices ![0, 0, 4] S8x676x1
  shapeCasts_S8x676x1_S8x676 : S8x676x1.ShapeCasts S8x676
  slices_S8x676x15_o0_0_0_S8x676x4 : S8x676x15.Slices ![0, 0, 0] S8x676x4
  reduces_S8x676x4_S8x676 : S8x676x4.Reduces [2] S8x676
  reduces_S8x676_S8 : S8x676.Reduces [1] S8
  shapeCasts_S8_S8x1 : S8.ShapeCasts S8x1
  reduces_S8x1_S1 : S8x1.Reduces [0] S1
  shapeCasts_S1_S1x1 : S1.ShapeCasts S1x1
  slices_S8x676x15_o0_0_5_S8x676x10 : S8x676x15.Slices ![0, 0, 5] S8x676x10
  reduces_S8x676x10_S8x676 : S8x676x10.Reduces [2] S8x676
  inb_S8x128_S1x1_0_0 : ∀ a, (![0, 0] : Fin 2 → Nat) a + S1x1.size a ≤ S8x128.size a
  h_S1x1 : 0 < S1x1.numel
  shapeCasts_S1x1_S1x1 : S1x1.ShapeCasts S1x1
  inb_S8x128_S1x1_0_1 : ∀ a, (![0, 1] : Fin 2 → Nat) a + S1x1.size a ≤ S8x128.size a
  inb_S8x128_S1x1_0_2 : ∀ a, (![0, 2] : Fin 2 → Nat) a + S1x1.size a ≤ S8x128.size a
  slices_S8x128_S1x1_0_0 : S8x128.Slices ![0, 0] S1x1
  shapeCasts_S1x1_S_ : S1x1.ShapeCasts S_
  slices_S8x128_S1x1_0_1 : S8x128.Slices ![0, 1] S1x1
  slices_S8x128_S1x1_0_2 : S8x128.Slices ![0, 2] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x676x15.size a ≤ S2048x676x15.size a
  hwx0_0 : ∀ i : grid0.Coords, EltTy.bits .f32 = 32 ∨ (Rect.block (s := S2048x676x15) S8x676x15.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x676x15.size a ≤ S2048x676x15.size a
  hwx0_1 : ∀ i : grid0.Coords, EltTy.bits .f32 = 32 ∨ (Rect.block (s := S2048x676x15) S8x676x15.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S8x128.size a
  hwx0_2 : ∀ i : grid0.Coords, EltTy.bits .f32 = 32 ∨ (Rect.block (s := S8x128) S8x128.size (cc0_transform_2 i) (hinb0_2 i)).WholeWords (EltTy.packing .f32)

variable [Facts₀]

abbrev win0_0 : Pipeline.Window sig grid0 :=
  Pipeline.Window.ofSpec (Memref.whole main_v0) S8x676x15.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x676x15.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2048x26x26x15 : Shape := ⟨4, ![2048, 26, 26, 15]⟩
abbrev S2048x10140 : Shape := ⟨2, ![2048, 10140]⟩
abbrev S2048x676x15 : Shape := ⟨3, ![2048, 676, 15]⟩
abbrev S2048x676x1 : Shape := ⟨3, ![2048, 676, 1]⟩
abbrev S2048x676 : Shape := ⟨2, ![2048, 676]⟩
abbrev S_ : Shape := ⟨0, ![]⟩
abbrev S2048x676x4 : Shape := ⟨3, ![2048, 676, 4]⟩
abbrev S2048x676x10 : Shape := ⟨3, ![2048, 676, 10]⟩

abbrev nBuf : Space → Nat
  | .hbm => 61
  | .vmem => 0
  | .smem => 0
  | _ => 0

abbrev bufTy : (tb : Table) → Fin (tcTables nBuf tb) → BufTy
  | .hbm, ⟨0, _⟩ => ⟨S2048x26x26x15, .f32⟩
  | .hbm, ⟨1, _⟩ => ⟨S2048x10140, .f32⟩
  | .hbm, ⟨2, _⟩ => ⟨S2048x676x15, .f32⟩
  | .hbm, ⟨3, _⟩ => ⟨S2048x676x15, .f32⟩
  | .hbm, ⟨4, _⟩ => ⟨S2048x676x1, .f32⟩
  | .hbm, ⟨5, _⟩ => ⟨S2048x676, .f32⟩
  | .hbm, ⟨6, _⟩ => ⟨S_, .f32⟩
  | .hbm, ⟨7, _⟩ => ⟨S2048x676, .f32⟩
  | .hbm, ⟨8, _⟩ => ⟨S2048x676, .i1⟩
  | .hbm, ⟨9, _⟩ => ⟨S2048x676x4, .f32⟩
  | .hbm, ⟨10, _⟩ => ⟨S2048x676x4, .f32⟩
  | .hbm, ⟨11, _⟩ => ⟨S2048x676x4, .f32⟩
  | .hbm, ⟨12, _⟩ => ⟨S2048x676x4, .f32⟩
  | .hbm, ⟨13, _⟩ => ⟨S_, .f32⟩
  | .hbm, ⟨14, _⟩ => ⟨S2048x676, .f32⟩
  | .hbm, ⟨15, _⟩ => ⟨S_, .f32⟩
  | .hbm, ⟨16, _⟩ => ⟨S_, .f32⟩
  | .hbm, ⟨17, _⟩ => ⟨S2048x676, .f32⟩
  | .hbm, ⟨18, _⟩ => ⟨S2048x676, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2048x676x1, .f32⟩
  | .hbm, ⟨24, _⟩ => ⟨S2048x676, .f32⟩
  | .hbm, ⟨25, _⟩ => ⟨S2048x676, .f32⟩
  | .hbm, ⟨26, _⟩ => ⟨S2048x676, .f32⟩
  | .hbm, ⟨27, _⟩ => ⟨S_, .f32⟩
  | .hbm, ⟨28, _⟩ => ⟨S2048x676, .f32⟩
  | .hbm, ⟨29, _⟩ => ⟨S2048x676, .f32⟩
  | .hbm, ⟨30, _⟩ => ⟨S_, .f32⟩
  | .hbm, ⟨31, _⟩ => ⟨S2048x676, .f32⟩
  | .hbm, ⟨32, _⟩ => ⟨S2048x676, .f32⟩
  | .hbm, ⟨33, _⟩ => ⟨S2048x676x1, .f32⟩
  | .hbm, ⟨34, _⟩ => ⟨S2048x676, .f32⟩
  | .hbm, ⟨35, _⟩ => ⟨S2048x676, .f32⟩
  | .hbm, ⟨36, _⟩ => ⟨S2048x676, .f32⟩
  | .hbm, ⟨37, _⟩ => ⟨S2048x676, .f32⟩
  | .hbm, ⟨38, _⟩ => ⟨S_, .f32⟩
  | .hbm, ⟨39, _⟩ => ⟨S2048x676, .f32⟩
  | .hbm, ⟨40, _⟩ => ⟨S2048x676, .f32⟩
  | .hbm, ⟨41, _⟩ => ⟨S2048x676, .f32⟩
  | .hbm, ⟨42, _⟩ => ⟨S_, .f32⟩
  | .hbm, ⟨43, _⟩ => ⟨S_, .f32⟩
  | .hbm, ⟨44, _⟩ => ⟨S2048x676x10, .f32⟩
  | .hbm, ⟨45, _⟩ => ⟨S2048x676x10, .f32⟩
  | .hbm, ⟨46, _⟩ => ⟨S2048x676x10, .f32⟩
  | .hbm, ⟨47, _⟩ => ⟨S2048x676x10, .f32⟩
  | .hbm, ⟨48, _⟩ => ⟨S_, .f32⟩
  | .hbm, ⟨49, _⟩ => ⟨S2048x676, .f32⟩
  | .hbm, ⟨50, _⟩ => ⟨S_, .f32⟩
  | .hbm, ⟨51, _⟩ => ⟨S2048x676, .f32⟩
  | .hbm, ⟨52, _⟩ => ⟨S2048x676, .f32⟩
  | .hbm, ⟨53, _⟩ => ⟨S_, .f32⟩
  | .hbm, ⟨54, _⟩ => ⟨S_, .f32⟩
  | .hbm, ⟨55, _⟩ => ⟨S2048x676, .f32⟩
  | .hbm, ⟨56, _⟩ => ⟨S2048x676, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | _, _ => ⟨S2048x26x26x15, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_8 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_cst_10 : Ref sig .tc := ⟨.hbm, 53, rfl⟩
abbrev main_call2_v0 : Ref sig .tc := ⟨.hbm, 54, rfl⟩
abbrev main_call2_v1 : Ref sig .tc := ⟨.hbm, 55, rfl⟩
abbrev main_v38 : Ref sig .tc := ⟨.hbm, 56, rfl⟩
abbrev main_cst_11 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]

class Facts₀ : Prop where
  shapeCasts_S2048x26x26x15_S2048x676x15 : S2048x26x26x15.ShapeCasts S2048x676x15
  shapeCasts_S2048x10140_S2048x676x15 : S2048x10140.ShapeCasts S2048x676x15
  slices_S2048x676x15_S2048x676x1_0_0_4 : S2048x676x15.Slices ![0, 0, 4] S2048x676x1
  shapeCasts_S2048x676x1_S2048x676 : S2048x676x1.ShapeCasts S2048x676
  bcast_S_S2048x676 : S_.BroadcastsInDim S2048x676 (![] : Fin 0 → Fin S2048x676.rank)
  slices_S2048x676x15_S2048x676x4_0_0_0 : S2048x676x15.Slices ![0, 0, 0] S2048x676x4
  reducesTo_S2048x676x4_S2048x676_d2 : S2048x676x4.ReducesTo [2] S2048x676
  h_S_ : 0 < S_.numel
  reducesTo_S2048x676_S_d0_1 : S2048x676.ReducesTo [0, 1] S_
  slices_S2048x676x15_S2048x676x10_0_0_5 : S2048x676x15.Slices ![0, 0, 5] S2048x676x10
  reducesTo_S2048x676x10_S2048x676_d2 : S2048x676x10.ReducesTo [2] S2048x676

variable [Facts₀]

class Facts : Prop extends Facts₀ where

variable [Facts]
-- ==== Proof.Cells.lean ====
/-
  The loss of one grid cell, and how sums over blocks of batch rows assemble into sums over the whole batch.

  A cell carries fifteen numbers: four box coordinates, one confidence, ten class scores; a prediction cell `p`
  is compared with a target cell `t`.  The cell "has an object" when the target's confidence is above zero.
    coordinate loss      the squared differences of the four box coordinates, summed, where there is an object, else 0
    confidence loss      (σ(p₄) − t₄)² where there is an object, else ½·σ(p₄)·σ(p₄), σ the logistic function
    classification loss  the mean of the ten squared class differences where there is an object, else 0
  Each total is the sum of its cell loss over every cell of every batch row (the coordinate total then scaled by 5).

  The arithmetic is that of the extended reals.  Re-grouping a finite sum by blocks of eight batch rows is free
  (addition is commutative and associative there); moving the factor 5 inside a sum is not free in general —
  c·(a + b) = c·a + c·b can fail when a and b are infinities of opposite sign — but it holds when every summand
  is ≥ 0, and a coordinate cell loss is: a product x·x is ≥ 0 for every extended real x, and so is a sum of such.
-/
import Idealize.ShloMosaic.PureOps.Ideal.Laws
import Idealize.ShloMosaic.Lib.ValueIdx

noncomputable section

open scoped BigOperators

namespace Cert.Loss

open Idealize.ShloMosaic Idealize.ShloMosaic.ValueIdx

/-- The fifteen numbers of one cell. -/
abbrev Cell : Type := Fin 15 → EReal

/-- Where box coordinate `k` sits among a cell's numbers: positions 0–3. -/
abbrev box (k : Fin 4) : Fin 15 := ⟨k.val, by omega⟩
/-- Where class score `k` sits: positions 5–14. -/
abbrev cls (k : Fin 10) : Fin 15 := ⟨5 + k.val, by omega⟩

/-- The cell has an object: the target confidence (position 4) is above zero. -/
def obj (t : Cell) : BitVec 1 :=
  FloatOps.cmpf (F := Ideal) (φ := .f32) .ogt (t 4) (Ideal.ofBits .f32 0x00000000#32)

/-- Coordinate loss of a cell. -/
def coordCell (p t : Cell) : EReal :=
  Scalar.select (obj t) (∑ k : Fin 4, (p (box k) - t (box k)) * (p (box k) - t (box k)))
    (Ideal.ofBits .f32 0x00000000#32)

/-- Confidence loss of a cell. -/
def confCell (p t : Cell) : EReal :=
  Scalar.select (obj t) ((Ideal.logistic (p 4) - t 4) * (Ideal.logistic (p 4) - t 4))
    (Ideal.ofBits .f32 0x3F000000#32 * Ideal.logistic (p 4) * Ideal.logistic (p 4))

/-- Classification loss of a cell. -/
def classCell (p t : Cell) : EReal :=
  Scalar.select (obj t)
    (Ideal.div (∑ k : Fin 10, (p (cls k) - t (cls k)) * (p (cls k) - t (cls k))) (Ideal.ofBits .f32 0x41200000#32))
    (Ideal.ofBits .f32 0x00000000#32)

/-- A square is never negative, at the infinities too. -/
theorem mul_self_nonneg' (x : EReal) : 0 ≤ x * x :=
  EReal.mul_nonneg_iff.mpr ((le_total 0 x).imp (fun h => ⟨h, h⟩) (fun h => ⟨h, h⟩))

/-- A coordinate cell loss is never negative. -/
theorem coordCell_nonneg (p t : Cell) : 0 ≤ coordCell p t := by
  unfold coordCell Scalar.select
  split
  · exact Finset.sum_nonneg fun k _ => mul_self_nonneg' _
  · rw [Ideal.ofBits_zero_f32]

/-- The cell of batch row `b`, position `s`, of an array of `n` batch rows. -/
abbrev cellOf {n : Nat} (X : (⟨3, ![n, 676, 15]⟩ : Shape).Idx → EReal) (b : Fin n) (s : Fin 676) : Cell :=
  fun k => X (ix3 b s k)

/-- A cell loss summed over every cell of `n` batch rows. -/
def sumCells {n : Nat} (f : Cell → Cell → EReal) (P T : (⟨3, ![n, 676, 15]⟩ : Shape).Idx → EReal) : EReal :=
  ∑ b : Fin n, ∑ s : Fin 676, f (cellOf P b s) (cellOf T b s)

theorem sumCells_nonneg {n : Nat} {f : Cell → Cell → EReal} (hf : ∀ p t, 0 ≤ f p t)
    (P T : (⟨3, ![n, 676, 15]⟩ : Shape).Idx → EReal) : 0 ≤ sumCells f P T :=
  Finset.sum_nonneg fun _ _ => Finset.sum_nonneg fun _ _ => hf _ _

/-! ## Blocks of eight batch rows -/

/-- Batch row `r` of block `t`: row `8·t + r` of the 2048. -/
abbrev row (t : Fin 256) (r : Fin 8) : Fin 2048 := ⟨8 * t.val + r.val, by omega⟩

/-- A sum over the 2048 batch rows is the sum over the 256 blocks of the sums over each block's eight rows. -/
theorem sum_rows {M : Type*} [AddCommMonoid M] (G : Fin 2048 → M) :
    ∑ b : Fin 2048, G b = ∑ t : Fin 256, ∑ r : Fin 8, G (row t r) := by
  rw [← Fintype.sum_prod_type']
  refine (Fintype.sum_equiv (finProdFinEquiv (m := 256) (n := 8)) (fun x => G (row x.1 x.2)) G fun x => ?_).symm
  refine congrArg G (Fin.ext ?_)
  show 8 * x.1.val + x.2.val = x.2.val + 8 * x.1.val
  omega

/-- Block `t` of an array of 2048 batch rows, as an array of eight. -/
abbrev blockOf (X : (⟨3, ![2048, 676, 15]⟩ : Shape).Idx → EReal) (t : Fin 256) :
    (⟨3, ![8, 676, 15]⟩ : Shape).Idx → EReal :=
  fun y => X (ix3 (row t (y 0)) (y 1) (y 2))

/-- Summing a cell loss over the whole batch is summing, over the blocks, its sum over each block. -/
theorem sumCells_blocks (f : Cell → Cell → EReal) (P T : (⟨3, ![2048, 676, 15]⟩ : Shape).Idx → EReal) :
    sumCells f P T = ∑ t : Fin 256, sumCells f (blockOf P t) (blockOf T t) := by
  unfold sumCells
  exact sum_rows _

/-! ## A running sum over the grid's points -/

/-- A factor moves inside a finite sum of non-negative extended reals. -/
theorem mul_sum_of_nonneg {ι : Type*} (s : Finset ι) (c : EReal) (a : ι → EReal) (ha : ∀ i, 0 ≤ a i) :
    c * ∑ i ∈ s, a i = ∑ i ∈ s, c * a i := by
  classical
  induction s using Finset.induction_on with
  | empty => simp
  | insert i s hi ih =>
    rw [Finset.sum_insert hi, Finset.sum_insert hi,
      EReal.left_distrib_of_nonneg (ha i) (Finset.sum_nonneg fun j _ => ha j), ih]

/-- The accumulator after point `n`: it starts from `z` at the first point and each point adds its term. -/
def running (z : EReal) (f : ℕ → EReal) : ℕ → EReal
  | 0 => z + f 0
  | n + 1 => running z f n + f (n + 1)

/-- The running sum is the start value plus the terms so far. -/
theorem running_eq (z : EReal) (f : ℕ → EReal) (n : ℕ) :
    running z f n = z + ∑ i ∈ Finset.range (n + 1), f i := by
  induction n with
  | zero => rw [running, Finset.sum_range_one]
  | succ n ih => rw [running, ih, Finset.sum_range_succ _ (n + 1), add_assoc]

/-! ## The three totals, and their assembly from the blocks' terms -/

/-- Coordinate total: five times the summed coordinate cell losses. -/
def coordTotal (P T : (⟨3, ![2048, 676, 15]⟩ : Shape).Idx → EReal) : EReal :=
  Ideal.ofBits .f32 0x40A00000#32 * sumCells coordCell P T
/-- Confidence total. -/
def confTotal (P T : (⟨3, ![2048, 676, 15]⟩ : Shape).Idx → EReal) : EReal := sumCells confCell P T
/-- Classification total. -/
def classTotal (P T : (⟨3, ![2048, 676, 15]⟩ : Shape).Idx → EReal) : EReal := sumCells classCell P T
/-- The loss: the three totals added, coordinate first. -/
def total (P T : (⟨3, ![2048, 676, 15]⟩ : Shape).Idx → EReal) : EReal :=
  coordTotal P T + confTotal P T + classTotal P T

/-- An accumulator that starts from the zero word and receives, at each of the 256 points, a cell loss summed over
    that point's block, ends at the cell loss summed over the whole batch. -/
theorem assemble (g : Cell → Cell → EReal) (P T : (⟨3, ![2048, 676, 15]⟩ : Shape).Idx → EReal) (f : ℕ → EReal)
    (hf : ∀ t : Fin 256, f t.val = sumCells g (blockOf P t) (blockOf T t)) :
    Ideal.ofBits .f32 0x00000000#32 + ∑ i ∈ Finset.range 256, f i = sumCells g P T := by
  rw [Ideal.ofBits_zero_f32, zero_add, Finset.sum_range, sumCells_blocks]
  exact Finset.sum_congr rfl fun t _ => hf t

/-- The same where each point scales its block's coordinate sum by five before adding it: the factor moves
    out of the sum over the points because every block's sum is non-negative. -/
theorem assemble_coord (P T : (⟨3, ![2048, 676, 15]⟩ : Shape).Idx → EReal) (f : ℕ → EReal)
    (hf : ∀ t : Fin 256, f t.val
      = Ideal.ofBits .f32 0x40A00000#32 * sumCells coordCell (blockOf P t) (blockOf T t)) :
    Ideal.ofBits .f32 0x00000000#32 + ∑ i ∈ Finset.range 256, f i = coordTotal P T := by
  rw [Ideal.ofBits_zero_f32, zero_add, Finset.sum_range, coordTotal, sumCells_blocks,
    mul_sum_of_nonneg _ _ _ fun t => sumCells_nonneg coordCell_nonneg _ _]
  exact Finset.sum_congr rfl fun t _ => hf t

end Cert.Loss

end
-- ==== Proof.RefSide.lean ====
/-
  The reference's four results, read index by index.

  The reference reshapes both arguments to [2048, 676, 15] — call the arrays P (predictions) and T (targets) — and
  from there computes, cell by cell, exactly the three cell losses: the object mask is the comparison of the target's
  position 4 with the zero word; the coordinate loss sums four squared differences from a zero start; the logistic
  function is written out as 1 / (1 + exp(−x)) with the unit word for 1, which is the logistic function itself on
  the extended reals; the no-object confidence term is ½·(σ·σ), the same number as (½·σ)·σ; the classification loss
  divides the sum of ten squared differences by the word for ten.  Each total is a sum over every index of a
  [2048, 676] array from a zero start, that is, the double sum over batch rows and positions.
-/
import proofs.«179992_j84670985273983_2_alg».proof.Proof.Gen.ReferenceIdeal.Run
import proofs.«179992_j84670985273983_2_alg».proof.Proof.Gen.ReferenceIdeal.Read
import proofs.«179992_j84670985273983_2_alg».proof.Proof.Cells
import Idealize.ShloMosaic.PureOps.IdealRules

noncomputable section

open scoped BigOperators

namespace Cert.RefSide

open Cert.ReferenceIdeal Cert.ReferenceIdeal.Read Idealize.ShloMosaic Idealize.ShloMosaic.ValueIdx Cert.Loss

variable (x0 : (⟨S2048x26x26x15, .f32⟩ : BufTy).Contents (Elt Ideal))
variable (x1 : (⟨S2048x10140, .f32⟩ : BufTy).Contents (Elt Ideal))

/-- The predictions as the reference reads them: [2048, 676, 15]. -/
abbrev P : (⟨3, ![2048, 676, 15]⟩ : Shape).Idx → EReal := val_main_v0 (F := Ideal) x0
/-- The targets likewise. -/
abbrev T : (⟨3, ![2048, 676, 15]⟩ : Shape).Idx → EReal := val_main_v1 (F := Ideal) x1

/-! ## Index equations: where each stage reads the two arrays -/

/-- Position 4 of cell (b, s): the slice at offset 4 followed by dropping the unit axis. -/
theorem at4_v3 (b : Fin 2048) (s : Fin 676) : idx_main_v2 (idx_main_v3 (ix2 b s)) = ix3 b s 4 :=
  funext fun a => Fin.ext (by
    have hs := s.isLt
    match a with
    | ⟨0, _⟩ => show (b.val * 676 + s.val) / 676 = b.val; omega
    | ⟨1, _⟩ => show (b.val * 676 + s.val) / 1 % 676 = s.val; omega
    | ⟨2, _⟩ => rfl)
theorem at4_v15 (b : Fin 2048) (s : Fin 676) : idx_main_v14 (idx_main_v15 (ix2 b s)) = ix3 b s 4 :=
  funext fun a => Fin.ext (by
    have hs := s.isLt
    match a with
    | ⟨0, _⟩ => show (b.val * 676 + s.val) / 676 = b.val; omega
    | ⟨1, _⟩ => show (b.val * 676 + s.val) / 1 % 676 = s.val; omega
    | ⟨2, _⟩ => rfl)
theorem at4_v23 (b : Fin 2048) (s : Fin 676) : idx_main_v22 (idx_main_v23 (ix2 b s)) = ix3 b s 4 :=
  funext fun a => Fin.ext (by
    have hs := s.isLt
    match a with
    | ⟨0, _⟩ => show (b.val * 676 + s.val) / 676 = b.val; omega
    | ⟨1, _⟩ => show (b.val * 676 + s.val) / 1 % 676 = s.val; omega
    | ⟨2, _⟩ => rfl)
/-- Box coordinate k of cell (b, s). -/
theorem box_v6 (b : Fin 2048) (s : Fin 676) (k : Fin 4) : idx_main_v6 (idx_main_v10 (ix2 b s) k) = ix3 b s (box k) :=
  funext fun a => Fin.ext (by match a with | ⟨0, _⟩ => rfl | ⟨1, _⟩ => rfl | ⟨2, _⟩ => rfl)
theorem box_v7 (b : Fin 2048) (s : Fin 676) (k : Fin 4) : idx_main_v7 (idx_main_v10 (ix2 b s) k) = ix3 b s (box k) :=
  funext fun a => Fin.ext (by match a with | ⟨0, _⟩ => rfl | ⟨1, _⟩ => rfl | ⟨2, _⟩ => rfl)
/-- Class score k of cell (b, s). -/
theorem cls_v31 (b : Fin 2048) (s : Fin 676) (k : Fin 10) : idx_main_v31 (idx_main_v35 (ix2 b s) k) = ix3 b s (cls k) :=
  funext fun a => Fin.ext (by match a with | ⟨0, _⟩ => rfl | ⟨1, _⟩ => rfl | ⟨2, _⟩ => rfl)
theorem cls_v32 (b : Fin 2048) (s : Fin 676) (k : Fin 10) : idx_main_v32 (idx_main_v35 (ix2 b s) k) = ix3 b s (cls k) :=
  funext fun a => Fin.ext (by match a with | ⟨0, _⟩ => rfl | ⟨1, _⟩ => rfl | ⟨2, _⟩ => rfl)

/-- A select between equal branches under one mask. -/
theorem select_congr {α : Type} (c : BitVec 1) {a a' b b' : α} (ha : a = a') (hb : b = b') :
    Scalar.select c a b = Scalar.select c a' b' := by rw [ha, hb]

/-- The unit word denotes one. -/
theorem one_word : Ideal.ofBits .f32 0x3F800000#32 = 1 := IdealRules.sign_bit.ideal_onePat .f32

/-! ## Cell by cell -/

/-- The reference's mask at (b, s) is the cell's object bit. -/
theorem mask_eq (b : Fin 2048) (s : Fin 676) :
    val_main_v5 (F := Ideal) x1 (ix2 b s) = obj (cellOf (T x1) b s) := by
  rw [val_main_v5_apply, val_main_v3_apply, val_main_v2_apply, val_main_v4_apply, val_main_cst_apply, at4_v3]
  rfl

/-- The reference's masked coordinate sum at (b, s) is the cell's coordinate loss. -/
theorem coord_eq (b : Fin 2048) (s : Fin 676) :
    val_main_v11 (F := Ideal) x0 x1 (ix2 b s) = coordCell (cellOf (P x0) b s) (cellOf (T x1) b s) := by
  rw [val_main_v11_apply, mask_eq, val_main_v10_apply, val_main_call0_v1_apply, val_main_call0_v0_apply,
    val_main_cst_1_apply]
  unfold coordCell
  refine select_congr _ ?_ rfl
  rw [val_main_cst_0_apply, Ideal.ofBits_def, Ideal.ofBits_zero_f32, zero_add]
  refine Finset.sum_congr rfl fun k _ => ?_
  rw [val_main_v9_apply, val_main_v8_apply, val_main_v6_apply, val_main_v7_apply, box_v6, box_v7]
  rfl

/-- The reference's written-out logistic at (b, s) is the logistic function of the prediction's position 4. -/
theorem sigma_eq (b : Fin 2048) (s : Fin 676) :
    val_main_v21 (F := Ideal) x0 (ix2 b s) = Ideal.logistic (P x0 (ix3 b s 4)) := by
  rw [val_main_v21_apply, val_main_v20_apply, val_main_cst_5_apply, val_main_v19_apply, val_main_v18_apply,
    val_main_cst_4_apply, val_main_v17_apply, val_main_v16_apply, val_main_v15_apply, val_main_v14_apply, at4_v15]
  simp only [Ideal.ofBits_def, Ideal.hostDivf_def, Ideal.addf_def, Ideal.hostUnary_exp_def, Ideal.hostNegf_def,
    Ideal.negf_def, one_word]
  rfl

/-- The reference's masked confidence term at (b, s) is the cell's confidence loss. -/
theorem conf_eq (b : Fin 2048) (s : Fin 676) :
    val_main_v29 (F := Ideal) x0 x1 (ix2 b s) = confCell (cellOf (P x0) b s) (cellOf (T x1) b s) := by
  rw [val_main_v29_apply, mask_eq, val_main_v25_apply, val_main_v24_apply, val_main_v28_apply, val_main_v27_apply,
    val_main_cst_6_apply, val_main_v26_apply, sigma_eq, val_main_v23_apply, val_main_v22_apply, at4_v23]
  unfold confCell
  simp only [Ideal.ofBits_def, Ideal.mulf_def, Ideal.subf_def, mul_assoc]

/-- The reference's masked class mean at (b, s) is the cell's classification loss. -/
theorem class_eq (b : Fin 2048) (s : Fin 676) :
    val_main_v38 (F := Ideal) x0 x1 (ix2 b s) = classCell (cellOf (P x0) b s) (cellOf (T x1) b s) := by
  rw [val_main_v38_apply, mask_eq, val_main_v37_apply, val_main_v35_apply, val_main_v36_apply, val_main_cst_9_apply,
    val_main_call2_v1_apply, val_main_call2_v0_apply, val_main_cst_10_apply]
  unfold classCell
  refine select_congr _ ?_ rfl
  rw [Ideal.hostDivf_def]
  refine congrArg (Ideal.div · _) ?_
  rw [val_main_cst_8_apply, Ideal.ofBits_def, Ideal.ofBits_zero_f32, zero_add]
  refine Finset.sum_congr rfl fun k _ => ?_
  rw [val_main_v34_apply, val_main_v33_apply, val_main_v31_apply, val_main_v32_apply, cls_v31, cls_v32]
  rfl

/-! ## The totals -/

theorem coordTotal_eq (i : S_.Idx) : val_main_v13 (F := Ideal) x0 x1 i = coordTotal (P x0) (T x1) := by
  rw [val_main_v13_apply, val_main_cst_3_apply, val_main_v12_apply,
    val_main_cst_2_apply, Ideal.ofBits_def, Ideal.ofBits_def, Ideal.ofBits_zero_f32, zero_add, sum_idx2]
  unfold coordTotal sumCells
  exact congrArg (Ideal.ofBits .f32 0x40A00000#32 * ·)
    (Finset.sum_congr rfl fun b _ => Finset.sum_congr rfl fun s _ => coord_eq x0 x1 b s)

theorem confTotal_eq (i : S_.Idx) : val_main_v30 (F := Ideal) x0 x1 i = confTotal (P x0) (T x1) := by
  rw [val_main_v30_apply,
    val_main_cst_7_apply, Ideal.ofBits_def, Ideal.ofBits_zero_f32, zero_add, sum_idx2]
  unfold confTotal sumCells
  exact Finset.sum_congr rfl fun b _ => Finset.sum_congr rfl fun s _ => conf_eq x0 x1 b s

theorem classTotal_eq (i : S_.Idx) : val_main_v39 (F := Ideal) x0 x1 i = classTotal (P x0) (T x1) := by
  rw [val_main_v39_apply,
    val_main_cst_11_apply, Ideal.ofBits_def, Ideal.ofBits_zero_f32, zero_add, sum_idx2]
  unfold classTotal sumCells
  exact Finset.sum_congr rfl fun b _ => Finset.sum_congr rfl fun s _ => class_eq x0 x1 b s

theorem total_eq (i : S_.Idx) : val_main_v41 (F := Ideal) x0 x1 i = total (P x0) (T x1) := by
  rw [val_main_v41_apply, val_main_v40_apply, coordTotal_eq, confTotal_eq, classTotal_eq]
  rfl

end Cert.RefSide

end
-- ==== Proof.BlockValue.lean ====
/-
  What the kernel body computes from one pair of input blocks.

  A block is eight batch rows of 676 cells of fifteen numbers.  From the prediction block x0 and the target block x1
  the body forms three one-element vectors: five times the block's summed coordinate cell losses, the block's summed
  confidence cell losses, and the block's summed classification cell losses.  Each is obtained the same way: a value
  per cell (slices of the last axis, differences, squares, a sum along the last axis, a select under the object
  mask), then a sum along the 676 positions of each row, then a sum over the eight rows; the sums start from the zero
  word, which contributes nothing.
-/
import proofs.«179992_j84670985273983_2_alg».proof.Proof.Gen.KernelIdeal.Skeleton
import proofs.«179992_j84670985273983_2_alg».proof.Proof.Cells
import Idealize.ShloMosaic.Lib.Pipeline.Value
import Idealize.ShloMosaic.Lib.ValueIdx
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx Cert.Loss

/-! ## Slices of the last axis, read at an index -/

/-- The first four of a cell's numbers: box coordinate k of cell (r, s). -/
theorem slice_box (x : FVec Ideal S8x676x15 .f32) (h : S8x676x15.Slices ![0, 0, 0] S8x676x4) (r : Fin 8) (s : Fin 676)
    (k : Fin 4) : extractStridedSlice S8x676x4 ![0, 0, 0] x h (ix3 r s k) = x (ix3 r s (box k)) :=
  extractStridedSlice_apply ![0, 0, 0] x h (ix3 r s k) (ix3 r s (box k)) fun a => by
    match a with
    | ⟨0, _⟩ => show r.val = 0 + r.val; omega
    | ⟨1, _⟩ => show s.val = 0 + s.val; omega
    | ⟨2, _⟩ => show k.val = 0 + k.val; omega

/-- The last ten: class score k of cell (r, s). -/
theorem slice_cls (x : FVec Ideal S8x676x15 .f32) (h : S8x676x15.Slices ![0, 0, 5] S8x676x10) (r : Fin 8) (s : Fin 676)
    (k : Fin 10) : extractStridedSlice S8x676x10 ![0, 0, 5] x h (ix3 r s k) = x (ix3 r s (cls k)) :=
  extractStridedSlice_apply ![0, 0, 5] x h (ix3 r s k) (ix3 r s (cls k)) fun a => by
    match a with
    | ⟨0, _⟩ => show r.val = 0 + r.val; omega
    | ⟨1, _⟩ => show s.val = 0 + s.val; omega
    | ⟨2, _⟩ => show 5 + k.val = 5 + k.val; rfl

/-- Position 4 alone, with its unit axis dropped: the confidence of cell (r, s). -/
theorem slice_conf (x : FVec Ideal S8x676x15 .f32) (h1 : S8x676x15.Slices ![0, 0, 4] S8x676x1)
    (h2 : S8x676x1.ShapeCasts S8x676) (r : Fin 8) (s : Fin 676) :
    shapeCast S8x676 (extractStridedSlice S8x676x1 ![0, 0, 4] x h1) h2 (ix2 r s) = x (ix3 r s 4) :=
  (shapeCast_apply _ h2 (ix2 r s) (ix3 r s 0) (by
      rw [Shape.rowMajor_val_three, Shape.rowMajor_val_two]
      show (r.val * 676 + s.val) * 1 + 0 = r.val * 676 + s.val
      omega)).trans
    (extractStridedSlice_apply ![0, 0, 4] x h1 (ix3 r s 0) (ix3 r s 4) fun a => by
      match a with
      | ⟨0, _⟩ => show r.val = 0 + r.val; omega
      | ⟨1, _⟩ => show s.val = 0 + s.val; omega
      | ⟨2, _⟩ => rfl)

/-! ## Sums along one axis, read at an index -/

/-- A sum along the last axis of four. -/
theorem lane4 (v : FVec Ideal S8x676x4 .f32) (h : S8x676x4.Reduces [2] S8x676) (hφ : FKind.Formats .f32)
    (hacc : (0x00000000#32 : BitVec 32) = FKind.add.neutral .f32 hφ) (r : Fin 8) (s : Fin 676) :
    multiReduction .add [2] S8x676 v 0x00000000#32 h hφ hacc (ix2 r s) = ∑ k : Fin 4, v (ix3 r s k) :=
  (Ideal.multiReduction_add_single v _ h hφ hacc (ix2 r s)).trans
    (Finset.sum_congr rfl fun k _ => congrArg v (funext fun a => Fin.ext (by
      match a with | ⟨0, _⟩ => rfl | ⟨1, _⟩ => rfl | ⟨2, _⟩ => rfl)))

/-- A sum along the last axis of ten. -/
theorem lane10 (v : FVec Ideal S8x676x10 .f32) (h : S8x676x10.Reduces [2] S8x676) (hφ : FKind.Formats .f32)
    (hacc : (0x00000000#32 : BitVec 32) = FKind.add.neutral .f32 hφ) (r : Fin 8) (s : Fin 676) :
    multiReduction .add [2] S8x676 v 0x00000000#32 h hφ hacc (ix2 r s) = ∑ k : Fin 10, v (ix3 r s k) :=
  (Ideal.multiReduction_add_single v _ h hφ hacc (ix2 r s)).trans
    (Finset.sum_congr rfl fun k _ => congrArg v (funext fun a => Fin.ext (by
      match a with | ⟨0, _⟩ => rfl | ⟨1, _⟩ => rfl | ⟨2, _⟩ => rfl)))

/-- A row's sum over its 676 positions. -/
theorem rows676 (v : FVec Ideal S8x676 .f32) (h : S8x676.Reduces [1] S8) (hφ : FKind.Formats .f32)
    (hacc : (0x00000000#32 : BitVec 32) = FKind.add.neutral .f32 hφ) (r : Fin 8) :
    multiReduction .add [1] S8 v 0x00000000#32 h hφ hacc (ix1 r) = ∑ s : Fin 676, v (ix2 r s) :=
  (Ideal.multiReduction_add_single v _ h hφ hacc (ix1 r)).trans
    (Finset.sum_congr rfl fun k _ => congrArg v (funext fun a => Fin.ext (by
      match a with | ⟨0, _⟩ => rfl | ⟨1, _⟩ => rfl)))

/-- The sum of a column of eight. -/
theorem rows8 (v : FVec Ideal S8x1 .f32) (h : S8x1.Reduces [0] S1) (hφ : FKind.Formats .f32)
    (hacc : (0x00000000#32 : BitVec 32) = FKind.add.neutral .f32 hφ) :
    multiReduction .add [0] S1 v 0x00000000#32 h hφ hacc (ix1 0) = ∑ r : Fin 8, v (ix2 r 0) :=
  (Ideal.multiReduction_add_single v _ h hφ hacc (ix1 0)).trans
    (Finset.sum_congr rfl fun k _ => congrArg v (funext fun a => Fin.ext (by
      match a with | ⟨0, _⟩ => rfl | ⟨1, _⟩ => rfl)))

/-- Eight numbers set as a column: entry (r, 0) is the r-th. -/
theorem col8 (v : FVec Ideal S8 .f32) (h : S8.ShapeCasts S8x1) (r : Fin 8) : shapeCast S8x1 v h (ix2 r 0) = v (ix1 r) :=
  shapeCast_apply v h (ix2 r 0) (ix1 r) (by
    rw [Shape.rowMajor_val_one, Shape.rowMajor_val_two]
    show r.val = r.val * 1 + 0
    omega)

/-- One number set as a one-by-one array. -/
theorem col1 (v : FVec Ideal S1 .f32) (h : S1.ShapeCasts S1x1) : shapeCast S1x1 v h (ix2 0 0) = v (ix1 0) :=
  shapeCast_apply v h (ix2 0 0) (ix1 0) (by
    rw [Shape.rowMajor_val_one, Shape.rowMajor_val_two]
    rfl)

/-- The block's total of a per-cell array: the row sums, set as a column, summed, set as a one-by-one array. -/
theorem blockTotal (v : FVec Ideal S8x676 .f32) (h1 : S8x676.Reduces [1] S8) (c1 : S8.ShapeCasts S8x1)
    (h0 : S8x1.Reduces [0] S1) (c0 : S1.ShapeCasts S1x1) (hφ : FKind.Formats .f32)
    (hacc : (0x00000000#32 : BitVec 32) = FKind.add.neutral .f32 hφ) :
    shapeCast S1x1 (multiReduction .add [0] S1 (shapeCast S8x1 (multiReduction .add [1] S8 v 0x00000000#32 h1 hφ hacc) c1)
      0x00000000#32 h0 hφ hacc) c0 (ix2 0 0) = ∑ r : Fin 8, ∑ s : Fin 676, v (ix2 r s) := by
  refine (col1 _ c0).trans ((rows8 _ h0 hφ hacc).trans ?_)
  exact Finset.sum_congr rfl fun r _ => (col8 _ c1 r).trans (rows676 v h1 hφ hacc r)

/-! ## The three block values -/

/-- The body's object mask at cell (r, s) is the cell's object bit. -/
theorem mask_value (x1 : FVec Ideal S8x676x15 .f32) (r : Fin 8) (s : Fin 676) :
    k0_pay7 (F := Ideal) x1 (ix2 r s) = obj (cellOf x1 r s) := by
  unfold k0_pay7 k0_pay6 obj
  refine congrArg (FloatOps.cmpf (F := Ideal) (φ := .f32) .ogt · (Ideal.ofBits .f32 0x00000000#32)) ?_
  exact (slice_conf _ _ _ r s).trans (congrFun (shapeCast_self x1 _) _)

/-- Five times the block's coordinate sum. -/
theorem coord_value (x0 x1 : FVec Ideal S8x676x15 .f32) :
    k0_pay8 (F := Ideal) x0 x1 (ix2 0 0) = Ideal.ofBits .f32 0x40A00000#32 * sumCells coordCell x0 x1 := by
  unfold k0_pay8 k0_pay5 k0_pay6
  refine congrArg (Ideal.ofBits .f32 0x40A00000#32 * ·) ?_
  refine (blockTotal _ _ _ _ _ _ _).trans ?_
  unfold sumCells
  refine Finset.sum_congr rfl fun r _ => Finset.sum_congr rfl fun s _ => ?_
  unfold coordCell
  refine (select_apply _ _ _ (ix2 r s)).trans ?_
  rw [mask_value]
  refine congrArg (fun z => Scalar.select (obj (cellOf x1 r s)) z (Ideal.ofBits .f32 0x00000000#32)) ?_
  refine (lane4 _ _ _ _ r s).trans (Finset.sum_congr rfl fun k _ => ?_)
  show (extractStridedSlice S8x676x4 ![0, 0, 0] (shapeCast S8x676x15 x0 _) _ (ix3 r s k)
      - extractStridedSlice S8x676x4 ![0, 0, 0] (shapeCast S8x676x15 x1 _) _ (ix3 r s k))
    * (extractStridedSlice S8x676x4 ![0, 0, 0] (shapeCast S8x676x15 x0 _) _ (ix3 r s k)
      - extractStridedSlice S8x676x4 ![0, 0, 0] (shapeCast S8x676x15 x1 _) _ (ix3 r s k)) = _
  rw [slice_box, slice_box, shapeCast_self, shapeCast_self]

/-- The block's confidence sum. -/
theorem conf_value (x0 x1 : FVec Ideal S8x676x15 .f32) :
    k0_pay9 (F := Ideal) x0 x1 (ix2 0 0) = sumCells confCell x0 x1 := by
  unfold k0_pay9 k0_pay5 k0_pay6
  refine (blockTotal _ _ _ _ _ _ _).trans ?_
  unfold sumCells
  refine Finset.sum_congr rfl fun r _ => Finset.sum_congr rfl fun s _ => ?_
  unfold confCell
  refine (select_apply _ _ _ (ix2 r s)).trans ?_
  rw [mask_value]
  show Scalar.select (obj (cellOf x1 r s))
      ((Ideal.logistic (shapeCast S8x676 (extractStridedSlice S8x676x1 ![0, 0, 4] (shapeCast S8x676x15 x0 _) _) _ (ix2 r s))
          - shapeCast S8x676 (extractStridedSlice S8x676x1 ![0, 0, 4] (shapeCast S8x676x15 x1 _) _) _ (ix2 r s))
        * (Ideal.logistic (shapeCast S8x676 (extractStridedSlice S8x676x1 ![0, 0, 4] (shapeCast S8x676x15 x0 _) _) _ (ix2 r s))
          - shapeCast S8x676 (extractStridedSlice S8x676x1 ![0, 0, 4] (shapeCast S8x676x15 x1 _) _) _ (ix2 r s)))
      (Ideal.ofBits .f32 0x3F000000#32
        * Ideal.logistic (shapeCast S8x676 (extractStridedSlice S8x676x1 ![0, 0, 4] (shapeCast S8x676x15 x0 _) _) _ (ix2 r s))
        * Ideal.logistic (shapeCast S8x676 (extractStridedSlice S8x676x1 ![0, 0, 4] (shapeCast S8x676x15 x0 _) _) _ (ix2 r s))) = _
  rw [slice_conf, slice_conf, shapeCast_self, shapeCast_self]

/-- The block's classification sum, added to what the accumulator's entry held. -/
theorem class_value (x0 x1 : FVec Ideal S8x676x15 .f32) (v62 : Vec Ideal S1x1 .f32) :
    k0_pay3 (F := Ideal) (k0_pay7 (F := Ideal) x1) (k0_pay10 (F := Ideal) x0) (k0_pay11 (F := Ideal) x1) v62 (ix2 0 0)
      = v62 (ix2 0 0) + sumCells classCell x0 x1 := by
  unfold k0_pay3 k0_pay10 k0_pay11 k0_pay5 k0_pay6
  refine (congrFun (shapeCast_self _ _) (ix2 0 0)).trans ?_
  refine congrArg (v62 (ix2 0 0) + ·) ?_
  refine (blockTotal _ _ _ _ _ _ _).trans ?_
  unfold sumCells
  refine Finset.sum_congr rfl fun r _ => Finset.sum_congr rfl fun s _ => ?_
  unfold classCell
  refine (select_apply _ _ _ (ix2 r s)).trans ?_
  rw [mask_value]
  refine congrArg (fun z => Scalar.select (obj (cellOf x1 r s)) (Ideal.div z (Ideal.ofBits .f32 0x41200000#32))
    (Ideal.ofBits .f32 0x00000000#32)) ?_
  refine (lane10 _ _ _ _ r s).trans (Finset.sum_congr rfl fun k _ => ?_)
  show (extractStridedSlice S8x676x10 ![0, 0, 5] (shapeCast S8x676x15 x0 _) _ (ix3 r s k)
      - extractStridedSlice S8x676x10 ![0, 0, 5] (shapeCast S8x676x15 x1 _) _ (ix3 r s k))
    * (extractStridedSlice S8x676x10 ![0, 0, 5] (shapeCast S8x676x15 x0 _) _ (ix3 r s k)
      - extractStridedSlice S8x676x10 ![0, 0, 5] (shapeCast S8x676x15 x1 _) _ (ix3 r s k)) = _
  rw [slice_cls, slice_cls, shapeCast_self, shapeCast_self]

/-- The coordinate entry's update: what it held plus the block's term. -/
theorem add_value1 (v23 : FVec Ideal S1x1 .f32) (v52 : Vec Ideal S1x1 .f32) (y : S1x1.Idx) :
    k0_pay1 (F := Ideal) v23 v52 y = v52 y + v23 y := by
  unfold k0_pay1
  exact congrFun (shapeCast_self _ _) y

/-- The confidence entry's update likewise. -/
theorem add_value2 (v38 : FVec Ideal S1x1 .f32) (v57 : Vec Ideal S1x1 .f32) (y : S1x1.Idx) :
    k0_pay2 (F := Ideal) v38 v57 y = v57 y + v38 y := by
  unfold k0_pay2
  exact congrFun (shapeCast_self _ _) y

/-- The block the first point resets the accumulator to holds the zero word everywhere. -/
theorem zero_value (y : S8x128.Idx) : k0_pay4 (F := Ideal) y = Ideal.ofBits .f32 0x00000000#32 := by
  unfold k0_pay4
  exact congrFun (shapeCast_self _ _) y

end Cert.KernelIdeal.BlockValue

end
-- ==== Proof.Carry.lean ====
/-
  The accumulator from one grid point to the next.

  The accumulator is an [8, 128] buffer of which only three entries matter: (0,0) carries the coordinate loss so far,
  (0,1) the confidence loss, (0,2) the classification loss.  At every point the body reads each of the three entries,
  adds the point's term, and stores it back through a one-by-one rectangle; three such stores touch three different
  entries, so each entry reads back its own store, whatever the buffer held before.  The first point first fills the
  whole buffer with the zero word, so its three reads see that word; a later point's reads see what the point before
  left.  The last point then copies the whole accumulator to the output block.
-/
import proofs.«179992_j84670985273983_2_alg».proof.Proof.Gen.KernelIdeal.Frame
import proofs.«179992_j84670985273983_2_alg».proof.Proof.BlockValue
import Idealize.ShloMosaic.Lib.WritesUnit
import Idealize.ShloMosaic.Lib.Pipeline.Value
import Idealize.ShloMosaic.Lib.Tactic

noncomputable section

open scoped BigOperators

namespace Cert.KernelIdeal.Carry

open Cert.KernelIdeal Cert.KernelIdeal.Gen Cert.KernelIdeal.BlockValue Idealize.ShloMosaic Idealize.ShloMosaic.TcCoe
open Idealize.ShloMosaic.ValueIdx Idealize.ShloMosaic.Tactic Idealize.SL.Sem Cert.Loss

/-! ## Three one-entry stores, newest first, read back at their entries -/

section Stores

variable {sg : RefSig} {κ : Kind} {sp : Space} {e : EltTy} {Val : EltTy → Type}
variable (v : View sg κ sp S8x128 e) (f : v.ty.Contents Val)
variable (i0 : ∀ a, (![0, 0] : Fin 2 → ℕ) a + (![1, 1] : Fin 2 → ℕ) a ≤ S8x128.size a)
variable (i1 : ∀ a, (![0, 1] : Fin 2 → ℕ) a + (![1, 1] : Fin 2 → ℕ) a ≤ S8x128.size a)
variable (i2 : ∀ a, (![0, 2] : Fin 2 → ℕ) a + (![1, 1] : Fin 2 → ℕ) a ≤ S8x128.size a)
variable (w0 : (Rect.unit (s := S8x128) ![0, 0] ![1, 1] i0).shape.Idx → Val e)
variable (w1 : (Rect.unit (s := S8x128) ![0, 1] ![1, 1] i1).shape.Idx → Val e)
variable (w2 : (Rect.unit (s := S8x128) ![0, 2] ![1, 1] i2).shape.Idx → Val e)
variable (L : List (View.Piece Val S8x128 e))

/-- Entry (0,0) reads the store made at (0,0): the two later stores miss it on the second axis. -/
theorem read00 :
    v.read Val (v.writes Val f (⟨Rect.unit ![0, 2] ![1, 1] i2, w2⟩ :: ⟨Rect.unit ![0, 1] ![1, 1] i1, w1⟩
      :: ⟨Rect.unit ![0, 0] ![1, 1] i0, w0⟩ :: L)) (ix2 0 0) = w0 (ix2 0 0) :=
  (View.read_writes_cons_unit_of_not_mem v f i2 w2 _ (ix2 0 0) rfl 1 (Or.inl (by decide))).trans
    ((View.read_writes_cons_unit_of_not_mem v f i1 w1 _ (ix2 0 0) rfl 1 (Or.inl (by decide))).trans
      (View.read_writes_cons_unit_of_mem v f i0 w0 L (ix2 0 0) (ix2 0 0) rfl fun a => by
        match a with | ⟨0, _⟩ => rfl | ⟨1, _⟩ => rfl))

/-- Entry (0,1) reads the store made at (0,1). -/
theorem read01 :
    v.read Val (v.writes Val f (⟨Rect.unit ![0, 2] ![1, 1] i2, w2⟩ :: ⟨Rect.unit ![0, 1] ![1, 1] i1, w1⟩
      :: ⟨Rect.unit ![0, 0] ![1, 1] i0, w0⟩ :: L)) (ix2 0 1) = w1 (ix2 0 0) :=
  (View.read_writes_cons_unit_of_not_mem v f i2 w2 _ (ix2 0 1) rfl 1 (Or.inl (by decide))).trans
    (View.read_writes_cons_unit_of_mem v f i1 w1 _ (ix2 0 1) (ix2 0 0) rfl fun a => by
      match a with | ⟨0, _⟩ => rfl | ⟨1, _⟩ => rfl)

/-- Entry (0,2) reads the newest store. -/
theorem read02 :
    v.read Val (v.writes Val f (⟨Rect.unit ![0, 2] ![1, 1] i2, w2⟩ :: ⟨Rect.unit ![0, 1] ![1, 1] i1, w1⟩
      :: ⟨Rect.unit ![0, 0] ![1, 1] i0, w0⟩ :: L)) (ix2 0 2) = w2 (ix2 0 0) :=
  View.read_writes_cons_unit_of_mem v f i2 w2 _ (ix2 0 2) (ix2 0 0) rfl fun a => by
    match a with | ⟨0, _⟩ => rfl | ⟨1, _⟩ => rfl

end Stores

/-! ## What a point leaves in the three entries -/

theorem hz2 : (![0, 0] : Fin 2 → Nat) = fun _ => 0 := funext fun a => by fin_cases a <;> rfl
theorem hz3 : (![0, 0, 0] : Fin 3 → Nat) = fun _ => 0 := funext fun a => by fin_cases a <;> rfl

/-- Contents `X` loaded through the one-by-one rectangle at (0, j): entry (0, j). -/
theorem ld00 (X : Vec Ideal S8x128 .f32) (inb) :
    View.ld (Val := Elt Ideal) (e' := EltTy.f32) X (Rect.unit (s := S8x128) ![0, 0] ![1, 1] inb) (ix2 0 0) = X (ix2 0 0) :=
  congrArg X (funext fun a => Fin.ext (by match a with | ⟨0, _⟩ => rfl | ⟨1, _⟩ => rfl))
theorem ld01 (X : Vec Ideal S8x128 .f32) (inb) :
    View.ld (Val := Elt Ideal) (e' := EltTy.f32) X (Rect.unit (s := S8x128) ![0, 1] ![1, 1] inb) (ix2 0 0) = X (ix2 0 1) :=
  congrArg X (funext fun a => Fin.ext (by match a with | ⟨0, _⟩ => rfl | ⟨1, _⟩ => rfl))
theorem ld02 (X : Vec Ideal S8x128 .f32) (inb) :
    View.ld (Val := Elt Ideal) (e' := EltTy.f32) X (Rect.unit (s := S8x128) ![0, 2] ![1, 1] inb) (ix2 0 0) = X (ix2 0 2) :=
  congrArg X (funext fun a => Fin.ext (by match a with | ⟨0, _⟩ => rfl | ⟨1, _⟩ => rfl))

/-- A point that is neither first nor last: each entry is what it held plus the point's term. -/
theorem after_B (c : Dev nD) (i : grid0.Coords) (a1 : Memref sig .tc .vmem S8x676x15 .f32) (h1 : a1.IsWhole)
    (a2 : Memref sig .tc .vmem S8x676x15 .f32) (h2 : a2.IsWhole) (a3 : Memref sig .tc .vmem S8x128 .f32) (h3 : a3.IsWhole)
    (a4 : Memref sig .tc .vmem S8x128 .f32) (h4 : a4.IsWhole) (hc0 : ¬cond0_0 i) (hc1 : ¬cond0_1 i)
    (x0 x1 : Vec Ideal S8x676x15 .f32) (xs0 : Vec Ideal S8x128 .f32) :
    sout0_B_0 (F := Ideal) c i a1 h1 a2 h2 a3 h3 a4 h4 hc0 hc1 x0 x1 xs0 (ix2 0 0)
        = xs0 (ix2 0 0) + Ideal.ofBits .f32 0x40A00000#32 * sumCells coordCell x0 x1
    ∧ sout0_B_0 (F := Ideal) c i a1 h1 a2 h2 a3 h3 a4 h4 hc0 hc1 x0 x1 xs0 (ix2 0 1)
        = xs0 (ix2 0 1) + sumCells confCell x0 x1
    ∧ sout0_B_0 (F := Ideal) c i a1 h1 a2 h2 a3 h3 a4 h4 hc0 hc1 x0 x1 xs0 (ix2 0 2)
        = xs0 (ix2 0 2) + sumCells classCell x0 x1 := by
  unfold sout0_B_0 kernelRun0_B
  dsimp only
  sl_unfold_words
  refine ⟨?_, ?_, ?_⟩
  · refine (read00 _ _ _ _ _ _ _ _ _).trans ?_
    simp only [View.readAt_eq_ld, h1.read_unread, h2.read_unread, h4.read_unread,
      View.ld_unit_zero (S := S8x676x15) hz3]
    rw [add_value1, coord_value, ld00]
  · refine (read01 _ _ _ _ _ _ _ _ _).trans ?_
    simp only [View.readAt_eq_ld, h1.read_unread, h2.read_unread, h4.read_unread,
      View.ld_unit_zero (S := S8x676x15) hz3]
    rw [add_value2, conf_value, ld01]
  · refine (read02 _ _ _ _ _ _ _ _ _).trans ?_
    simp only [View.readAt_eq_ld, h1.read_unread, h2.read_unread, h4.read_unread,
      View.ld_unit_zero (S := S8x676x15) hz3]
    rw [class_value, ld02]

/-- The last point updates the three entries in the same way, -/
theorem after_C (c : Dev nD) (i : grid0.Coords) (a1 : Memref sig .tc .vmem S8x676x15 .f32) (h1 : a1.IsWhole)
    (a2 : Memref sig .tc .vmem S8x676x15 .f32) (h2 : a2.IsWhole) (a3 : Memref sig .tc .vmem S8x128 .f32) (h3 : a3.IsWhole)
    (a4 : Memref sig .tc .vmem S8x128 .f32) (h4 : a4.IsWhole) (hc0 : ¬cond0_0 i) (hc1 : cond0_1 i)
    (x0 x1 : Vec Ideal S8x676x15 .f32) (xs0 : Vec Ideal S8x128 .f32) :
    sout0_C_0 (F := Ideal) c i a1 h1 a2 h2 a3 h3 a4 h4 hc0 hc1 x0 x1 xs0 (ix2 0 0)
        = xs0 (ix2 0 0) + Ideal.ofBits .f32 0x40A00000#32 * sumCells coordCell x0 x1
    ∧ sout0_C_0 (F := Ideal) c i a1 h1 a2 h2 a3 h3 a4 h4 hc0 hc1 x0 x1 xs0 (ix2 0 1)
        = xs0 (ix2 0 1) + sumCells confCell x0 x1
    ∧ sout0_C_0 (F := Ideal) c i a1 h1 a2 h2 a3 h3 a4 h4 hc0 hc1 x0 x1 xs0 (ix2 0 2)
        = xs0 (ix2 0 2) + sumCells classCell x0 x1 := by
  unfold sout0_C_0 kernelRun0_C
  dsimp only
  sl_unfold_words
  refine ⟨?_, ?_, ?_⟩
  · refine (read00 _ _ _ _ _ _ _ _ _).trans ?_
    simp only [View.readAt_eq_ld, h1.read_unread, h2.read_unread, h4.read_unread,
      View.ld_unit_zero (S := S8x676x15) hz3]
    rw [add_value1, coord_value, ld00]
  · refine (read01 _ _ _ _ _ _ _ _ _).trans ?_
    simp only [View.readAt_eq_ld, h1.read_unread, h2.read_unread, h4.read_unread,
      View.ld_unit_zero (S := S8x676x15) hz3]
    rw [add_value2, conf_value, ld01]
  · refine (read02 _ _ _ _ _ _ _ _ _).trans ?_
    simp only [View.readAt_eq_ld, h1.read_unread, h2.read_unread, h4.read_unread,
      View.ld_unit_zero (S := S8x676x15) hz3]
    rw [class_value, ld02]

/-- and then stores the whole accumulator, as just updated, into the output block. -/
theorem out_C (c : Dev nD) (i : grid0.Coords) (a1 : Memref sig .tc .vmem S8x676x15 .f32) (h1 : a1.IsWhole)
    (a2 : Memref sig .tc .vmem S8x676x15 .f32) (h2 : a2.IsWhole) (a3 : Memref sig .tc .vmem S8x128 .f32) (h3 : a3.IsWhole)
    (a4 : Memref sig .tc .vmem S8x128 .f32) (h4 : a4.IsWhole) (hc0 : ¬cond0_0 i) (hc1 : cond0_1 i)
    (x0 x1 : Vec Ideal S8x676x15 .f32) (xs0 : Vec Ideal S8x128 .f32) :
    out0_C_2 (F := Ideal) c i a1 h1 a2 h2 a3 h3 a4 h4 hc0 hc1 x0 x1 xs0
      = sout0_C_0 (F := Ideal) c i a1 h1 a2 h2 a3 h3 a4 h4 hc0 hc1 x0 x1 xs0 := by
  unfold out0_C_2
  rw [View.read_writes_eq_canon _ _ _ (cover0_C_2 c i a1 h1 a2 h2 a3 h3 a4 h4 hc0 hc1 x0 x1 xs0)]
  unfold sout0_C_0 kernelRun0_C
  dsimp only
  sl_unfold_words
  rw [View.canon_unit_zero hz2]
  simp only [View.readAt_eq_ld, View.ld_unit_zero (S := S8x128) hz2]

/-- A one-by-one store at (0, j) does not reach an index whose second coordinate is past j. -/
theorem canon_skip (offp : Fin 2 → ℕ) (ip : ∀ a, offp a + (![1, 1] : Fin 2 → ℕ) a ≤ S8x128.size a)
    (wp : (Rect.unit (s := S8x128) offp ![1, 1] ip).shape.Idx → Elt Ideal .f32)
    (L : List (View.Piece (Elt Ideal) S8x128 .f32)) (y : S8x128.Idx) (a : Fin 2)
    (ha : (y a).val < offp a ∨ offp a + (![1, 1] : Fin 2 → ℕ) a ≤ (y a).val) :
    View.canon (⟨Rect.unit (s := S8x128) offp ![1, 1] ip, wp⟩ :: L) y = View.canon L y :=
  View.canon_cons_of_not_mem _ _ (by
    rw [Rect.mem_set_unit]
    intro hall
    have := hall a
    omega)

/-- A load after a list of stores over unknown contents reads, at each of its indices, what the stores leave there. -/
theorem readCov_at {sg : RefSig} {κ : Kind} {sp : Space} (v : View sg κ sp S8x128 .f32)
    (L : List (View.Piece (Elt Ideal) S8x128 .f32)) (B : LoadRect S8x128) (j : B.shape.Idx) :
    v.readCov L B j = View.canon L (B.idx j) :=
  congrFun (View.readCov_eq_canon' v L B) j

section FirstPoint

variable (i0 : ∀ a, (![0, 0] : Fin 2 → ℕ) a + (![1, 1] : Fin 2 → ℕ) a ≤ S8x128.size a)
variable (i1 : ∀ a, (![0, 1] : Fin 2 → ℕ) a + (![1, 1] : Fin 2 → ℕ) a ≤ S8x128.size a)
variable (i2 : ∀ a, (![0, 2] : Fin 2 → ℕ) a + (![1, 1] : Fin 2 → ℕ) a ≤ S8x128.size a)
variable (iw : ∀ a, (![0, 0] : Fin 2 → ℕ) a + S8x128.size a ≤ S8x128.size a)
variable (w0 : (Rect.unit (s := S8x128) ![0, 0] ![1, 1] i0).shape.Idx → Elt Ideal .f32)
variable (w1 : (Rect.unit (s := S8x128) ![0, 1] ![1, 1] i1).shape.Idx → Elt Ideal .f32)
variable (wz : S8x128.Idx → Elt Ideal .f32)

/-- After the whole-buffer fill alone, entry (0,0) holds the fill. -/
theorem canon_at0 :
    View.canon [(⟨Rect.unit (s := S8x128) ![0, 0] S8x128.size iw, wz⟩ : View.Piece (Elt Ideal) S8x128 .f32)]
      ((Rect.unit (s := S8x128) ![0, 0] ![1, 1] i0).toLoadRect.idx (ix2 0 0)) = wz (ix2 0 0) :=
  (congrFun (View.canon_unit_zero hz2 iw wz) _).trans
    (congrArg wz (funext fun a => Fin.ext (by match a with | ⟨0, _⟩ => rfl | ⟨1, _⟩ => rfl)))

/-- After the fill and the store at (0,0), entry (0,1) still holds the fill. -/
theorem canon_at1 :
    View.canon [(⟨Rect.unit (s := S8x128) ![0, 0] ![1, 1] i0, w0⟩ : View.Piece (Elt Ideal) S8x128 .f32),
        ⟨Rect.unit (s := S8x128) ![0, 0] S8x128.size iw, wz⟩]
      ((Rect.unit (s := S8x128) ![0, 1] ![1, 1] i1).toLoadRect.idx (ix2 0 0)) = wz (ix2 0 1) :=
  (canon_skip ![0, 0] i0 w0 _ _ 1 (Or.inr (by show (0 : ℕ) + 1 ≤ 1 + 1 * 0; decide))).trans
    ((congrFun (View.canon_unit_zero hz2 iw wz) _).trans
      (congrArg wz (funext fun a => Fin.ext (by match a with | ⟨0, _⟩ => rfl | ⟨1, _⟩ => rfl))))

/-- After the fill and the stores at (0,0) and (0,1), entry (0,2) still holds the fill. -/
theorem canon_at2 :
    View.canon [(⟨Rect.unit (s := S8x128) ![0, 1] ![1, 1] i1, w1⟩ : View.Piece (Elt Ideal) S8x128 .f32),
        ⟨Rect.unit (s := S8x128) ![0, 0] ![1, 1] i0, w0⟩, ⟨Rect.unit (s := S8x128) ![0, 0] S8x128.size iw, wz⟩]
      ((Rect.unit (s := S8x128) ![0, 2] ![1, 1] i2).toLoadRect.idx (ix2 0 0)) = wz (ix2 0 2) :=
  (canon_skip ![0, 1] i1 w1 _ _ 1 (Or.inr (by show (1 : ℕ) + 1 ≤ 2 + 1 * 0; decide))).trans
    ((canon_skip ![0, 0] i0 w0 _ _ 1 (Or.inr (by show (0 : ℕ) + 1 ≤ 2 + 1 * 0; decide))).trans
      ((congrFun (View.canon_unit_zero hz2 iw wz) _).trans
        (congrArg wz (funext fun a => Fin.ext (by match a with | ⟨0, _⟩ => rfl | ⟨1, _⟩ => rfl)))))

end FirstPoint

/-- The first point: the buffer is first filled with the zero word, so each entry ends at that word plus the
    point's term. -/
theorem after_A (c : Dev nD) (i : grid0.Coords) (a1 : Memref sig .tc .vmem S8x676x15 .f32) (h1 : a1.IsWhole)
    (a2 : Memref sig .tc .vmem S8x676x15 .f32) (h2 : a2.IsWhole) (a3 : Memref sig .tc .vmem S8x128 .f32) (h3 : a3.IsWhole)
    (a4 : Memref sig .tc .vmem S8x128 .f32) (h4 : a4.IsWhole) (hc0 : cond0_0 i) (hc1 : ¬cond0_1 i)
    (x0 x1 : Vec Ideal S8x676x15 .f32) :
    sout0_A_0 (F := Ideal) c i a1 h1 a2 h2 a3 h3 a4 h4 hc0 hc1 x0 x1 (ix2 0 0)
        = Ideal.ofBits .f32 0x00000000#32 + Ideal.ofBits .f32 0x40A00000#32 * sumCells coordCell x0 x1
    ∧ sout0_A_0 (F := Ideal) c i a1 h1 a2 h2 a3 h3 a4 h4 hc0 hc1 x0 x1 (ix2 0 1)
        = Ideal.ofBits .f32 0x00000000#32 + sumCells confCell x0 x1
    ∧ sout0_A_0 (F := Ideal) c i a1 h1 a2 h2 a3 h3 a4 h4 hc0 hc1 x0 x1 (ix2 0 2)
        = Ideal.ofBits .f32 0x00000000#32 + sumCells classCell x0 x1 := by
  unfold sout0_A_0 kernelRun0_A
  dsimp only
  sl_unfold_words
  refine ⟨?_, ?_, ?_⟩
  · refine (read00 _ _ _ _ _ _ _ _ _).trans ?_
    simp only [View.readAt_eq_ld, h1.read_unread, h2.read_unread, View.ld_unit_zero (S := S8x676x15) hz3]
    rw [add_value1, coord_value, readCov_at, canon_at0, zero_value]
  · refine (read01 _ _ _ _ _ _ _ _ _).trans ?_
    simp only [View.readAt_eq_ld, h1.read_unread, h2.read_unread, View.ld_unit_zero (S := S8x676x15) hz3]
    rw [add_value2, conf_value, readCov_at, canon_at1, zero_value]
  · refine (read02 _ _ _ _ _ _ _ _ _).trans ?_
    simp only [View.readAt_eq_ld, h1.read_unread, h2.read_unread, View.ld_unit_zero (S := S8x676x15) hz3]
    rw [class_value, readCov_at, canon_at2, zero_value]

end Cert.KernelIdeal.Carry

end
-- ==== Proof.Accumulate.lean ====
/-
  From the per-point accumulator to the kernel's four results.

  By induction on the grid point the accumulator's three entries are running sums: the zero word, then one term
  per point.  Only the last point writes the output block back, and that block is the whole [8, 128] output array,
  so the array ends equal to the accumulator after the last point.  The host lines after the call read entries
  (0,0), (0,1), (0,2) of that array as scalars and add them, first to second, then the third.
-/
import proofs.«179992_j84670985273983_2_alg».proof.Proof.Carry
import Idealize.ShloMosaic.Lib.Pipeline.Value
import Idealize.ShloMosaic.Lib.StableHlo.Run

noncomputable section

open scoped BigOperators

namespace Cert.KernelIdeal.Accumulate

open Cert.KernelIdeal Cert.KernelIdeal.Gen Cert.KernelIdeal.Carry Idealize.ShloMosaic Idealize.ShloMosaic.TcCoe
open Idealize.ShloMosaic.ValueIdx Idealize.SL.Sem Cert.Loss
open Idealize.ShloMosaic.Pipeline (Dat)

variable (m : (ℓ : Loc nD τ sig) → Buf (Elt Ideal) ℓ) (ρ : Dev nD → PrngReg)

/-- The prediction block and the target block of point `n`. -/
abbrev pblk (c : Dev nD) (n : ℕ) (h : n < cfg0.N) : Vec Ideal S8x676x15 .f32 := iblk m c 0 ⟨n, h⟩
abbrev tblk (c : Dev nD) (n : ℕ) (h : n < cfg0.N) : Vec Ideal S8x676x15 .f32 := iblk m c 1 ⟨n, h⟩

/-- What point `n` adds to each entry (nothing past the grid). -/
def term0 (c : Dev nD) (n : ℕ) : EReal :=
  if h : n < cfg0.N then Ideal.ofBits .f32 0x40A00000#32 * sumCells coordCell (pblk m c n h) (tblk m c n h) else 0
def term1 (c : Dev nD) (n : ℕ) : EReal :=
  if h : n < cfg0.N then sumCells confCell (pblk m c n h) (tblk m c n h) else 0
def term2 (c : Dev nD) (n : ℕ) : EReal :=
  if h : n < cfg0.N then sumCells classCell (pblk m c n h) (tblk m c n h) else 0

/-- After point `n` the accumulator's three entries are the running sums of the three terms. -/
theorem carried (c : Dev nD) : ∀ (n : ℕ) (h : n < cfg0.N),
    (outsAt0 m c n h).2 (ix2 0 0) = running (Ideal.ofBits .f32 0x00000000#32) (term0 m c) n
    ∧ (outsAt0 m c n h).2 (ix2 0 1) = running (Ideal.ofBits .f32 0x00000000#32) (term1 m c) n
    ∧ (outsAt0 m c n h).2 (ix2 0 2) = running (Ideal.ofBits .f32 0x00000000#32) (term2 m c) n
  | 0, h => by
    have t0 : term0 m c 0
        = Ideal.ofBits .f32 0x40A00000#32 * sumCells coordCell (pblk m c 0 h) (tblk m c 0 h) := dif_pos h
    have t1 : term1 m c 0 = sumCells confCell (pblk m c 0 h) (tblk m c 0 h) := dif_pos h
    have t2 : term2 m c 0 = sumCells classCell (pblk m c 0 h) (tblk m c 0 h) := dif_pos h
    show _ = Ideal.ofBits .f32 0x00000000#32 + term0 m c 0 ∧ _ = Ideal.ofBits .f32 0x00000000#32 + term1 m c 0
      ∧ _ = Ideal.ofBits .f32 0x00000000#32 + term2 m c 0
    rw [t0, t1, t2, outsAt0_A m c ⟨0, h⟩ rfl (by show ¬0 % 256 = 255; decide)]
    dsimp only
    exact after_A c (grid0.coords ⟨0, h⟩) (ms0_0 ⟨0, h⟩) (hs0_0 ⟨0, h⟩) (ms0_1 ⟨0, h⟩) (hs0_1 ⟨0, h⟩) (ms0_2 ⟨0, h⟩)
      (hs0_2 ⟨0, h⟩) scM0_0 (Memref.isWhole_whole _) _ _ (iblk m c 0 ⟨0, h⟩) (iblk m c 1 ⟨0, h⟩)
  | n + 1, h => by
    have hN : cfg0.N = 256 := N_0
    obtain ⟨i0, i1, i2⟩ := carried c n (Nat.lt_of_succ_lt h)
    have t0 : term0 m c (n + 1)
        = Ideal.ofBits .f32 0x40A00000#32 * sumCells coordCell (pblk m c (n + 1) h) (tblk m c (n + 1) h) := dif_pos h
    have t1 : term1 m c (n + 1) = sumCells confCell (pblk m c (n + 1) h) (tblk m c (n + 1) h) := dif_pos h
    have t2 : term2 m c (n + 1) = sumCells classCell (pblk m c (n + 1) h) (tblk m c (n + 1) h) := dif_pos h
    have h0 : ¬(⟨n + 1, h⟩ : Fin cfg0.N).val % 256 = 0 := by dsimp only; omega
    show _ = running _ _ n + term0 m c (n + 1) ∧ _ = running _ _ n + term1 m c (n + 1)
      ∧ _ = running _ _ n + term2 m c (n + 1)
    rw [t0, t1, t2, ← i0, ← i1, ← i2]
    by_cases h1 : (⟨n + 1, h⟩ : Fin cfg0.N).val % 256 = 255
    · rw [outsAt0_C m c ⟨n + 1, h⟩ h0 h1]
      dsimp only
      exact after_C c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) scM0_0 (Memref.isWhole_whole _) _ _
        (iblk m c 0 ⟨n + 1, h⟩) (iblk m c 1 ⟨n + 1, h⟩) (outsAt0 m c n (Nat.lt_of_succ_lt h)).2
    · rw [outsAt0_B m c ⟨n + 1, h⟩ h0 h1]
      dsimp only
      exact after_B c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) scM0_0 (Memref.isWhole_whole _) _ _
        (iblk m c 0 ⟨n + 1, h⟩) (iblk m c 1 ⟨n + 1, h⟩) (outsAt0 m c n (Nat.lt_of_succ_lt h)).2

/-! ## The output array -/

/-- The grid's last point is point 255. -/
theorem h255 : 255 < cfg0.N := by rw [show cfg0.N = 256 from N_0]; decide

/-- What the output block holds after the last point: the accumulator. -/
theorem out_last (c : Dev nD) : (outsAt0 m c 255 h255).1 = (outsAt0 m c 255 h255).2 := by
  rw [outsAt0_C m c ⟨255, h255⟩ (by decide) (by decide)]
  dsimp only
  exact out_C c (grid0.coords ⟨255, h255⟩) (ms0_0 ⟨255, h255⟩) (hs0_0 ⟨255, h255⟩) (ms0_1 ⟨255, h255⟩)
    (hs0_1 ⟨255, h255⟩) (ms0_2 ⟨255, h255⟩) (hs0_2 ⟨255, h255⟩) scM0_0 (Memref.isWhole_whole _) _ _
    (iblk m c 0 ⟨255, h255⟩) (iblk m c 1 ⟨255, h255⟩) _

/-- The output array's final contents: the output block after the last point. -/
abbrev result (c : Dev nD) : Buf (Elt Ideal) ((c : Thread nD τ).loc main_v2) := (outsAt0 m c 255 h255).1

/-- Its three entries are the three running sums over all 256 points. -/
theorem result_entries (c : Dev nD) :
    result m c (ix2 0 0) = running (Ideal.ofBits .f32 0x00000000#32) (term0 m c) 255
    ∧ result m c (ix2 0 1) = running (Ideal.ofBits .f32 0x00000000#32) (term1 m c) 255
    ∧ result m c (ix2 0 2) = running (Ideal.ofBits .f32 0x00000000#32) (term2 m c) 255 := by
  show (outsAt0 m c 255 h255).1 (ix2 0 0) = _ ∧ (outsAt0 m c 255 h255).1 (ix2 0 1) = _
    ∧ (outsAt0 m c 255 h255).1 (ix2 0 2) = _
  rw [out_last]
  exact carried m c 255 h255

end Cert.KernelIdeal.Accumulate

end
-- ==== Proof.Output.lean ====
/-
  The output array and the host lines after the call.

  Only the last grid point writes the output block back, and that block covers the whole [8, 128] array, so the array
  ends holding that block.  The host then takes entries (0,0), (0,1), (0,2) as scalars — the coordinate, confidence
  and classification losses — and adds them: the first two, then the third.
-/
import proofs.«179992_j84670985273983_2_alg».proof.Proof.Accumulate
import Idealize.ShloMosaic.Lib.Pipeline.Value
import Idealize.ShloMosaic.Lib.StableHlo.Run

noncomputable section

namespace Cert.KernelIdeal.Output

open Cert.KernelIdeal Cert.KernelIdeal.Gen Cert.KernelIdeal.Accumulate Idealize.ShloMosaic Idealize.ShloMosaic.TcCoe
open Idealize.ShloMosaic.ValueIdx Idealize.SL.Sem Cert.Loss
open Idealize.ShloMosaic.Pipeline (Dat)

variable (m : (ℓ : Loc nD τ sig) → Buf (Elt Ideal) ℓ) (ρ : Dev nD → PrngReg)

/-- The one write-back, at the last point, writes the output block after that point; read through the window's
    block — the whole array at zero offsets — it is the array itself.  (Stated over a name `R` for that block's
    contents.) -/
theorem flushed_eq (c : Dev nD) (R : Vec Ideal S8x128 .f32) (hR : (outsAt0 m c 255 h255).1 = R) (t : Fin cfg0.N)
    (hf : (cfg0.win 2).flush t = true) :
    (dats m 0 c).flushed 2 t = ((cfg0.win 2).blk t).view.read (Elt Ideal) R := by
  have hN : cfg0.N = 256 := N_0
  have ht : t.val = 255 := by have := (flush0_2 t).mp hf; have := t.isLt; omega
  obtain rfl : t = ⟨255, h255⟩ := Fin.ext ht
  have e : (dats m 0 c).after 2 ⟨255, h255⟩ = R := (after0_2 m c ⟨255, h255⟩).trans hR
  show (cfg0.win 2).cut (grid0.coords ⟨255, h255⟩) ((dats m 0 c).after 2 ⟨255, h255⟩) = _
  rw [e]
  have hz' : (fun a => win0_2.index ⟨255, h255⟩ a * main_v2.ty.shape.size a) = fun _ => 0 :=
    funext fun a => by fin_cases a <;> decide +kernel
  exact (Memref.read_access_unit_zero (Elt Ideal) main_v2 hz' (fun a => by rw [congrFun hz' a]; simp) R).symm

/-- Every index of the output array lies in the block the last point writes back: the block is rows 0–7, columns 0–127. -/
theorem covered (i : S8x128.Idx) :
    ∃ t : Fin cfg0.N, (cfg0.win 2).flush t = true ∧ i ∈ ((cfg0.win 2).blk t).view.set :=
  ⟨⟨255, h255⟩, (flush0_2 _).mpr rfl, by
    show i ∈ ((View.whole main_v2).slice (win0_2.rect ⟨255, h255⟩)).set
    rw [View.set_slice_whole, Rect.mem_set_unit]
    intro a
    have h0 : (i 0 : Nat) < 8 := (i 0).isLt
    have h1 : (i 1 : Nat) < 128 := (i 1).isLt
    match a with
    | ⟨0, _⟩ =>
      show win0_2.index ⟨255, h255⟩ 0 * win0_2.size 0 ≤ (i 0 : Nat)
        ∧ (i 0 : Nat) < win0_2.index ⟨255, h255⟩ 0 * win0_2.size 0 + win0_2.xsize (grid0.coords ⟨255, h255⟩) 0
      rw [show win0_2.index ⟨255, h255⟩ 0 * win0_2.size 0 = 0 from by decide +kernel,
        show win0_2.xsize (grid0.coords ⟨255, h255⟩) 0 = 8 from by decide +kernel]
      omega
    | ⟨1, _⟩ =>
      show win0_2.index ⟨255, h255⟩ 1 * win0_2.size 1 ≤ (i 1 : Nat)
        ∧ (i 1 : Nat) < win0_2.index ⟨255, h255⟩ 1 * win0_2.size 1 + win0_2.xsize (grid0.coords ⟨255, h255⟩) 1
      rw [show win0_2.index ⟨255, h255⟩ 1 * win0_2.size 1 = 0 from by decide +kernel,
        show win0_2.xsize (grid0.coords ⟨255, h255⟩) 1 = 128 from by decide +kernel]
      omega⟩

/-- So the output array ends holding the output block after the last point. -/
theorem final (c : Dev nD) : (dats m 0 c).arrAt 2 cfg0.N = result m c :=
  (dats m 0 c).arrAt_eq_of_cover 2 (result m c) (flushed_eq m c (result m c) rfl) covered

/-- The contents the host lines after the call start from hold that array at the call's result. -/
theorem out_array (c : Dev nD) :
    Pipeline.withArrays spec0 c (V0 m c) (fun w => (dats m 0 c).arrAt w cfg0.N) (Proc.devRef .tc main_v2) = result m c :=
  (Pipeline.withArrays_arr spec0 launch0.win.arr_inj c _ _ 2).trans (final m c)

/-- A one-by-one slice at (0, j) of an [8, 128] array, cast to a scalar, is entry (0, j). -/
theorem entry_of (X : S8x128.Idx → EReal) (j : Fin 128) (hs : S8x128.Slices ![0, j.val] S1x1)
    (hc : S1x1.ShapeCasts S_) (i : S_.Idx) :
    shapeCast S_ (extractStridedSlice S1x1 ![0, j.val] X hs) hc i = X (ix2 0 j) :=
  (shapeCast_apply _ hc i (ix2 0 0) (by
      rw [Shape.rowMajor_val_two]
      have h := (Shape.rowMajor S_ i).isLt
      have h1 : S_.numel = 1 := by decide
      show 0 * 1 + 0 = _
      omega)).trans
    (extractStridedSlice_apply ![0, j.val] X hs (ix2 0 0) (ix2 0 j) fun a => by
      match a with
      | ⟨0, _⟩ => rfl
      | ⟨1, _⟩ => show j.val = j.val + 0; omega)

/-- The array the host lines after the call read, at any name `W` for it. -/
abbrev tailArr (c : Dev nD) : S8x128.Idx → EReal :=
  Pipeline.withArrays spec0 c (V0 m c) (fun w => (dats m 0 c).arrAt w cfg0.N) (Proc.devRef .tc main_v2)

/-- The coordinate loss the host returns: entry (0,0) of the output array. -/
theorem tail_v4 (c : Dev nD) (R : S8x128.Idx → EReal) (hR : tailArr m c = R) :
    Pipeline.afterTail₀ cfgs (dats m) 0 (V0 m) [hostOps1] c main_v4 = fun _ => R (ix2 0 0) := by
  unfold Pipeline.afterTail₀
  show StableHlo.after hostOps1 _ (Proc.devRef .tc main_v4) = _
  after_results
  funext i
  show shapeCast S_ (extractStridedSlice S1x1 ![0, 0] (tailArr m c) slices_S8x128_S1x1_0_0) shapeCasts_S1x1_S_ i = _
  rw [hR]
  exact entry_of R 0 _ _ i

/-- The confidence loss: entry (0,1). -/
theorem tail_v6 (c : Dev nD) (R : S8x128.Idx → EReal) (hR : tailArr m c = R) :
    Pipeline.afterTail₀ cfgs (dats m) 0 (V0 m) [hostOps1] c main_v6 = fun _ => R (ix2 0 1) := by
  unfold Pipeline.afterTail₀
  show StableHlo.after hostOps1 _ (Proc.devRef .tc main_v6) = _
  after_results
  funext i
  show shapeCast S_ (extractStridedSlice S1x1 ![0, 1] (tailArr m c) slices_S8x128_S1x1_0_1) shapeCasts_S1x1_S_ i = _
  rw [hR]
  exact entry_of R 1 _ _ i

/-- The classification loss: entry (0,2). -/
theorem tail_v8 (c : Dev nD) (R : S8x128.Idx → EReal) (hR : tailArr m c = R) :
    Pipeline.afterTail₀ cfgs (dats m) 0 (V0 m) [hostOps1] c main_v8 = fun _ => R (ix2 0 2) := by
  unfold Pipeline.afterTail₀
  show StableHlo.after hostOps1 _ (Proc.devRef .tc main_v8) = _
  after_results
  funext i
  show shapeCast S_ (extractStridedSlice S1x1 ![0, 2] (tailArr m c) slices_S8x128_S1x1_0_2) shapeCasts_S1x1_S_ i = _
  rw [hR]
  exact entry_of R 2 _ _ i

/-- The loss: the first two added, then the third. -/
theorem tail_v10 (c : Dev nD) (R : S8x128.Idx → EReal) (hR : tailArr m c = R) :
    Pipeline.afterTail₀ cfgs (dats m) 0 (V0 m) [hostOps1] c main_v10
      = fun _ => R (ix2 0 0) + R (ix2 0 1) + R (ix2 0 2) := by
  unfold Pipeline.afterTail₀
  show StableHlo.after hostOps1 _ (Proc.devRef .tc main_v10) = _
  after_results
  funext i
  show shapeCast S_ (extractStridedSlice S1x1 ![0, 0] (tailArr m c) slices_S8x128_S1x1_0_0) shapeCasts_S1x1_S_ i
      + shapeCast S_ (extractStridedSlice S1x1 ![0, 1] (tailArr m c) slices_S8x128_S1x1_0_1) shapeCasts_S1x1_S_ i
      + shapeCast S_ (extractStridedSlice S1x1 ![0, 2] (tailArr m c) slices_S8x128_S1x1_0_2) shapeCasts_S1x1_S_ i = _
  rw [hR]
  exact congrArg₂ (· + ·) (congrArg₂ (· + ·) (entry_of R 0 _ _ i) (entry_of R 1 _ _ i)) (entry_of R 2 _ _ i)

end Cert.KernelIdeal.Output

end
-- ==== Proof.Blocks.lean ====
/-
  What the kernel's input blocks are.

  Before the call the host reshapes both arguments to [2048, 676, 15]; the call's two input windows cut those arrays
  into 256 blocks of eight batch rows each, block t being rows 8·t … 8·t + 7, all positions, all fifteen numbers.
-/
import proofs.«179992_j84670985273983_2_alg».proof.Proof.Gen.KernelIdeal.Frame
import proofs.«179992_j84670985273983_2_alg».proof.Proof.Cells
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe
open Idealize.ShloMosaic.ValueIdx Idealize.SL.Sem Cert.Loss

variable (m : (ℓ : Loc nD τ sig) → Buf (Elt Ideal) ℓ)

/-- The predictions as the call finds them: the first argument reshaped to [2048, 676, 15]. -/
abbrev P (c : Dev nD) : (⟨3, ![2048, 676, 15]⟩ : Shape).Idx → EReal :=
  shapeCast S2048x676x15 (m ((c : Thread nD τ).loc main_arg0)) shapeCasts_S2048x26x26x15_S2048x676x15
/-- The targets as the call finds them: the second argument reshaped likewise. -/
abbrev T (c : Dev nD) : (⟨3, ![2048, 676, 15]⟩ : Shape).Idx → EReal :=
  shapeCast S2048x676x15 (m ((c : Thread nD τ).loc main_arg1)) shapeCasts_S2048x10140_S2048x676x15

/-- The array the first window is cut from is the reshaped first argument, -/
theorem V_v0 (c : Dev nD) : (V m c main_v0 : S2048x676x15.Idx → EReal) = P m c := by
  show StableHlo.after hostOps0 (fun b => m (c, b)) (Proc.devRef .tc main_v0) = _
  after_results
  rfl
/-- and the second window's the reshaped second argument. -/
theorem V_v1 (c : Dev nD) : (V m c main_v1 : S2048x676x15.Idx → EReal) = T m c := by
  show StableHlo.after hostOps0 (fun b => m (c, b)) (Proc.devRef .tc main_v1) = _
  after_results
  rfl

/-- Both windows step along the batch axis only: the block index at point `t` is (t, 0, 0). -/
theorem index0 : ∀ t : Fin cfg0.N, win0_0.index t (0 : Fin 3) = t.val ∧ win0_0.index t (1 : Fin 3) = 0
    ∧ win0_0.index t (2 : Fin 3) = 0 :=
  (by decide +kernel : ∀ t : Fin grid0.N, win0_0.index t (0 : Fin 3) = t.val ∧ win0_0.index t (1 : Fin 3) = 0
    ∧ win0_0.index t (2 : Fin 3) = 0)
theorem index1 : ∀ t : Fin cfg0.N, win0_1.index t (0 : Fin 3) = t.val ∧ win0_1.index t (1 : Fin 3) = 0
    ∧ win0_1.index t (2 : Fin 3) = 0 :=
  (by decide +kernel : ∀ t : Fin grid0.N, win0_1.index t (0 : Fin 3) = t.val ∧ win0_1.index t (1 : Fin 3) = 0
    ∧ win0_1.index t (2 : Fin 3) = 0)

/-- Entry (r, s, k) of the first window's block at point `t` is entry (8·t + r, s, k) of the predictions. -/
theorem read0 (c : Dev nD) (t : Fin cfg0.N) (r : Fin 8) (s : Fin 676) (k : Fin 15) (b : Fin 2048)
    (hb : b.val = 8 * t.val + r.val) :
    (iblk m c 0 t : Vec Ideal S8x676x15 .f32) (ix3 r s k) = P m c (ix3 b s k) := by
  rw [← V_v0]
  unfold iblk
  rw [View.read_apply]
  show V m c main_v0 _ = V m c main_v0 _
  refine congrArg (V m c main_v0) (funext fun a => Fin.ext ?_)
  match a with
  | ⟨0, _⟩ => show win0_0.index t 0 * 8 + 1 * r.val = b.val; rw [(index0 t).1, hb]; omega
  | ⟨1, _⟩ => show win0_0.index t 1 * 676 + 1 * s.val = s.val; rw [(index0 t).2.1]; omega
  | ⟨2, _⟩ => show win0_0.index t 2 * 15 + 1 * k.val = k.val; rw [(index0 t).2.2]; omega

/-- The same for the second window and the targets. -/
theorem read1 (c : Dev nD) (t : Fin cfg0.N) (r : Fin 8) (s : Fin 676) (k : Fin 15) (b : Fin 2048)
    (hb : b.val = 8 * t.val + r.val) :
    (iblk m c 1 t : Vec Ideal S8x676x15 .f32) (ix3 r s k) = T m c (ix3 b s k) := by
  rw [← V_v1]
  unfold iblk
  rw [View.read_apply]
  show V m c main_v1 _ = V m c main_v1 _
  refine congrArg (V m c main_v1) (funext fun a => Fin.ext ?_)
  match a with
  | ⟨0, _⟩ => show win0_1.index t 0 * 8 + 1 * r.val = b.val; rw [(index1 t).1, hb]; omega
  | ⟨1, _⟩ => show win0_1.index t 1 * 676 + 1 * s.val = s.val; rw [(index1 t).2.1]; omega
  | ⟨2, _⟩ => show win0_1.index t 2 * 15 + 1 * k.val = k.val; rw [(index1 t).2.2]; omega

/-- So the block at point `t` is block `t` of the array, as an array of eight batch rows. -/
theorem block0 (c : Dev nD) (t : Fin 256) (h : t.val < cfg0.N) :
    (iblk m c 0 ⟨t.val, h⟩ : Vec Ideal S8x676x15 .f32) = blockOf (P m c) t := by
  funext y
  obtain ⟨r, s, k, rfl⟩ : ∃ (r : Fin 8) (s : Fin 676) (k : Fin 15), y = ix3 r s k := ⟨y 0, y 1, y 2, eq_ix3 y⟩
  exact read0 m c ⟨t.val, h⟩ r s k (row t r) rfl
theorem block1 (c : Dev nD) (t : Fin 256) (h : t.val < cfg0.N) :
    (iblk m c 1 ⟨t.val, h⟩ : Vec Ideal S8x676x15 .f32) = blockOf (T m c) t := by
  funext y
  obtain ⟨r, s, k, rfl⟩ : ∃ (r : Fin 8) (s : Fin 676) (k : Fin 15), y = ix3 r s k := ⟨y 0, y 1, y 2, eq_ix3 y⟩
  exact read1 m c ⟨t.val, h⟩ r s k (row t r) rfl

end Cert.KernelIdeal.Blocks

end
-- ==== Proof.Totals.lean ====
/-
  The accumulator's three entries after the last point are the three totals.

  Each entry is the zero word plus the 256 points' terms; a point's term is the cell loss summed over the point's
  block (scaled by five for the coordinate loss), and the blocks are the 256 groups of eight consecutive batch rows
  of the reshaped arguments.  Regrouping the double sum over batch rows and positions by blocks, and for the
  coordinate loss moving the factor five out of the sum over the points (every block's sum is non-negative), gives
  the totals.
-/
import proofs.«179992_j84670985273983_2_alg».proof.Proof.Accumulate
import proofs.«179992_j84670985273983_2_alg».proof.Proof.Blocks

noncomputable section

open scoped BigOperators

namespace Cert.KernelIdeal.Totals

open Cert.KernelIdeal Cert.KernelIdeal.Gen Cert.KernelIdeal.Accumulate Cert.KernelIdeal.Blocks
open Idealize.ShloMosaic Idealize.ShloMosaic.TcCoe Idealize.ShloMosaic.ValueIdx Idealize.SL.Sem Cert.Loss

variable (m : (ℓ : Loc nD τ sig) → Buf (Elt Ideal) ℓ) (ρ : Dev nD → PrngReg)

/-- Every block index is a grid point. -/
theorem lt_N (t : Fin 256) : t.val < cfg0.N := by rw [show cfg0.N = 256 from N_0]; exact t.isLt

/-- Point t's three terms, over block t of the reshaped arguments. -/
theorem term0_block (c : Dev nD) (t : Fin 256) : term0 m c t.val
    = Ideal.ofBits .f32 0x40A00000#32 * sumCells coordCell (blockOf (P m c) t) (blockOf (T m c) t) := by
  have e : term0 m c t.val = Ideal.ofBits .f32 0x40A00000#32
      * sumCells coordCell (pblk m c t.val (lt_N t)) (tblk m c t.val (lt_N t)) := dif_pos (lt_N t)
  rw [e]
  show _ * sumCells coordCell (iblk m c 0 ⟨t.val, lt_N t⟩ : Vec Ideal S8x676x15 .f32)
    (iblk m c 1 ⟨t.val, lt_N t⟩ : Vec Ideal S8x676x15 .f32) = _
  rw [block0 m c t (lt_N t), block1 m c t (lt_N t)]
theorem term1_block (c : Dev nD) (t : Fin 256) : term1 m c t.val
    = sumCells confCell (blockOf (P m c) t) (blockOf (T m c) t) := by
  have e : term1 m c t.val = sumCells confCell (pblk m c t.val (lt_N t)) (tblk m c t.val (lt_N t)) := dif_pos (lt_N t)
  rw [e]
  show sumCells confCell (iblk m c 0 ⟨t.val, lt_N t⟩ : Vec Ideal S8x676x15 .f32)
    (iblk m c 1 ⟨t.val, lt_N t⟩ : Vec Ideal S8x676x15 .f32) = _
  rw [block0 m c t (lt_N t), block1 m c t (lt_N t)]
theorem term2_block (c : Dev nD) (t : Fin 256) : term2 m c t.val
    = sumCells classCell (blockOf (P m c) t) (blockOf (T m c) t) := by
  have e : term2 m c t.val = sumCells classCell (pblk m c t.val (lt_N t)) (tblk m c t.val (lt_N t)) := dif_pos (lt_N t)
  rw [e]
  show sumCells classCell (iblk m c 0 ⟨t.val, lt_N t⟩ : Vec Ideal S8x676x15 .f32)
    (iblk m c 1 ⟨t.val, lt_N t⟩ : Vec Ideal S8x676x15 .f32) = _
  rw [block0 m c t (lt_N t), block1 m c t (lt_N t)]

/-- The output array's three entries are the three totals. -/
theorem coord_result (c : Dev nD) : result m c (ix2 0 0) = coordTotal (P m c) (T m c) := by
  rw [(result_entries m c).1, running_eq]
  exact assemble_coord (P m c) (T m c) (term0 m c) (term0_block m c)
theorem conf_result (c : Dev nD) : result m c (ix2 0 1) = confTotal (P m c) (T m c) := by
  rw [(result_entries m c).2.1, running_eq]
  exact assemble confCell (P m c) (T m c) (term1 m c) (term1_block m c)
theorem class_result (c : Dev nD) : result m c (ix2 0 2) = classTotal (P m c) (T m c) := by
  rw [(result_entries m c).2.2, running_eq]
  exact assemble classCell (P m c) (T m c) (term2 m c) (term2_block m c)

end Cert.KernelIdeal.Totals

end
-- ==== Proof.KernelSide.lean ====
/-
  The kernel's run, read: its four results as functions of its two arguments.

  The call leaves the output array at the accumulator after the last point, whose entries (0,0), (0,1), (0,2) are
  the coordinate, confidence and classification totals of the reshaped arguments; the host lines after the call
  return those three entries as scalars and, first, their sum — the first two added, then the third.  The two
  argument arrays end as they began.
-/
import proofs.«179992_j84670985273983_2_alg».proof.Proof.Output
import proofs.«179992_j84670985273983_2_alg».proof.Proof.Totals

noncomputable section

namespace Cert.KernelIdeal.KernelSide

open Cert.KernelIdeal Cert.KernelIdeal.Gen Cert.KernelIdeal.Accumulate Cert.KernelIdeal.Output Cert.KernelIdeal.Blocks
open Cert.KernelIdeal.Totals Idealize.ShloMosaic Idealize.ShloMosaic.TcCoe Idealize.ShloMosaic.ValueIdx Idealize.SL.Sem
open Cert.Loss

variable (m : (ℓ : Loc nD τ sig) → Buf (Elt Ideal) ℓ) (ρ : Dev nD → PrngReg)

/-- The output array, as an array of extended reals. -/
abbrev out (c : Dev nD) : S8x128.Idx → EReal := result m c

/-- What the host lines after the call return, from the output array's three entries. -/
theorem v10_eq (c : Dev nD) :
    Pipeline.afterTail₀ cfgs (dats m) 0 (V0 m) [hostOps1] c main_v10 = fun _ => total (P m c) (T m c) := by
  have e0 : out m c (ix2 0 0) = coordTotal (P m c) (T m c) := coord_result m c
  have e1 : out m c (ix2 0 1) = confTotal (P m c) (T m c) := conf_result m c
  have e2 : out m c (ix2 0 2) = classTotal (P m c) (T m c) := class_result m c
  rw [tail_v10 m c (out m c) (out_array m c), e0, e1, e2]
  rfl
theorem v4_eq (c : Dev nD) :
    Pipeline.afterTail₀ cfgs (dats m) 0 (V0 m) [hostOps1] c main_v4 = fun _ => coordTotal (P m c) (T m c) := by
  rw [tail_v4 m c (out m c) (out_array m c)]
  show (fun _ => result m c (ix2 0 0)) = _
  rw [coord_result]
theorem v6_eq (c : Dev nD) :
    Pipeline.afterTail₀ cfgs (dats m) 0 (V0 m) [hostOps1] c main_v6 = fun _ => confTotal (P m c) (T m c) := by
  rw [tail_v6 m c (out m c) (out_array m c)]
  show (fun _ => result m c (ix2 0 1)) = _
  rw [conf_result]
theorem v8_eq (c : Dev nD) :
    Pipeline.afterTail₀ cfgs (dats m) 0 (V0 m) [hostOps1] c main_v8 = fun _ => classTotal (P m c) (T m c) := by
  rw [tail_v8 m c (out m c) (out_array m c)]
  show (fun _ => result m c (ix2 0 2)) = _
  rw [class_result]

/-- The four results and the two arguments are buffers the call does not stage: the run's post speaks of them. -/
theorem rest_v10 : main_v10 ∈ Pipeline.restRefs sig spec0 := Pipeline.mem_restRefs_of main_v10 (by decide) (by decide)
theorem rest_v4 : main_v4 ∈ Pipeline.restRefs sig spec0 := Pipeline.mem_restRefs_of main_v4 (by decide) (by decide)
theorem rest_v6 : main_v6 ∈ Pipeline.restRefs sig spec0 := Pipeline.mem_restRefs_of main_v6 (by decide) (by decide)
theorem rest_v8 : main_v8 ∈ Pipeline.restRefs sig spec0 := Pipeline.mem_restRefs_of main_v8 (by decide) (by decide)
theorem rest_arg0 : main_arg0 ∈ Pipeline.restRefs sig spec0 := Pipeline.mem_restRefs_of main_arg0 (by decide) (by decide)
theorem rest_arg1 : main_arg1 ∈ Pipeline.restRefs sig spec0 := Pipeline.mem_restRefs_of main_arg1 (by decide) (by decide)

/-- Every weakly fair execution of the kernel's program terminates with the four results at the loss and its three
    parts, and the arguments unchanged. -/
theorem run : θ_run defs (onTc (τ := τ) (main (F := Ideal))) ⟨m, fun _ => 0, ρ⟩ (fun r => ∀ c : Dev nD,
      r.2.mem ((c.tc : Thread nD τ).loc main_v10) = (fun _ => total (P m c) (T m c))
      ∧ r.2.mem ((c.tc : Thread nD τ).loc main_v4) = (fun _ => coordTotal (P m c) (T m c))
      ∧ r.2.mem ((c.tc : Thread nD τ).loc main_v6) = (fun _ => confTotal (P m c) (T m c))
      ∧ r.2.mem ((c.tc : Thread nD τ).loc main_v8) = (fun _ => classTotal (P m c) (T m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v10 rest_v10).trans (v10_eq m c),
      ((h c).2 main_v4 rest_v4).trans (v4_eq m c),
      ((h c).2 main_v6 rest_v6).trans (v6_eq m c),
      ((h c).2 main_v8 rest_v8).trans (v8_eq m c),
      ((h c).2 main_arg0 rest_arg0).trans (W_main_arg0 m (dats m) c),
      ((h c).2 main_arg1 rest_arg1).trans (W_main_arg1 m (dats m) c)⟩) (run_main m ρ)

end Cert.KernelIdeal.KernelSide

end
-- ==== Proof.lean ====
/-
  The kernel computes the loss and its three parts as the reference does.

  Both programs first reshape the two arguments to [2048, 676, 15]: 2048 batch rows of 676 cells of fifteen numbers.
  A cell's coordinate, confidence and classification losses are functions of its fifteen predicted and fifteen target
  numbers alone.  The reference sums each cell loss over all cells at once (and scales the coordinate sum by five);
  the kernel walks the batch in 256 blocks of eight rows, adds each block's sums (the coordinate one already scaled
  by five) into three entries of an accumulator that starts from zero, and copies the accumulator out after the last
  block.  On the extended reals the two agree: finite sums may be regrouped freely, the factor five moves across the
  sum over the blocks because every block's coordinate sum is non-negative, the kernel's logistic operation is the
  reference's 1 / (1 + exp(−x)), and (½·σ)·σ = ½·(σ·σ).  No finiteness of the inputs is used.
  The three frames are the programs' runs with the results dropped; the idealization rewrote nothing.
-/
import proofs.«179992_j84670985273983_2_alg».proof.Defs
import proofs.«179992_j84670985273983_2_alg».proof.Proof.Gen.Kernel
import proofs.«179992_j84670985273983_2_alg».proof.Proof.Gen.Kernel.Skeleton
import proofs.«179992_j84670985273983_2_alg».proof.Proof.Gen.Kernel.Launch
import proofs.«179992_j84670985273983_2_alg».proof.Proof.Gen.Kernel.Points
import proofs.«179992_j84670985273983_2_alg».proof.Proof.Gen.Kernel.Frame
import proofs.«179992_j84670985273983_2_alg».proof.Proof.Gen.KernelIdeal
import proofs.«179992_j84670985273983_2_alg».proof.Proof.Gen.KernelIdeal.Skeleton
import proofs.«179992_j84670985273983_2_alg».proof.Proof.Gen.KernelIdeal.Launch
import proofs.«179992_j84670985273983_2_alg».proof.Proof.Gen.KernelIdeal.Points
import proofs.«179992_j84670985273983_2_alg».proof.Proof.Gen.KernelIdeal.Frame
import proofs.«179992_j84670985273983_2_alg».proof.Proof.Gen.ReferenceIdeal
import proofs.«179992_j84670985273983_2_alg».proof.Proof.Gen.Pre_finite_inputs
import proofs.«179992_j84670985273983_2_alg».proof.Proof.RefSide
import proofs.«179992_j84670985273983_2_alg».proof.Proof.KernelSide
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The reference's frame: its run with the results dropped. -/
theorem frame_ri : Cert.frame_ReferenceIdeal := fun m ρ _ =>
  (θ_run Cert.ReferenceIdeal.defs _ _).mono (fun _ h c => (h c).2.2.2.2)
    (Cert.ReferenceIdeal.Value.run (F := Ideal) m ρ)

theorem preserves : Cert.preserves_Kernel_KernelIdeal := trivial

/-- From arguments that agree, the kernel's four results and the reference's are the loss and its three parts of the
    same two reshaped arrays. -/
theorem algebraic : Cert.algebraic_KernelIdeal_ReferenceIdeal := by
  intro m ρ m' ρ' _ hagree
  refine ⟨fun c _ => Cert.Loss.total (Cert.KernelIdeal.Blocks.P m c) (Cert.KernelIdeal.Blocks.T m c),
    fun c _ => Cert.Loss.coordTotal (Cert.KernelIdeal.Blocks.P m c) (Cert.KernelIdeal.Blocks.T m c),
    fun c _ => Cert.Loss.confTotal (Cert.KernelIdeal.Blocks.P m c) (Cert.KernelIdeal.Blocks.T m c),
    fun c _ => Cert.Loss.classTotal (Cert.KernelIdeal.Blocks.P m c) (Cert.KernelIdeal.Blocks.T m c),
    Cert.KernelIdeal.KernelSide.run m ρ, ?_⟩
  refine (θ_run Cert.ReferenceIdeal.defs _ _).mono (fun _ h c => ?_)
    (Cert.ReferenceIdeal.Value.run (F := Ideal) m' ρ')
  obtain ⟨e41, e13, e30, e39, ea0, ea1⟩ := h c
  refine ⟨e41.trans ((Cert.ReferenceIdeal.Read.val_main_v41_eq m' c).trans ?_),
    e13.trans ((Cert.ReferenceIdeal.Read.val_main_v13_eq _ _).trans ?_),
    e30.trans ((Cert.ReferenceIdeal.Read.val_main_v30_eq _ _).trans ?_),
    e39.trans ((Cert.ReferenceIdeal.Read.val_main_v39_eq _ _).trans ?_), ea0, ea1⟩
  · rw [(hagree c).1, (hagree c).2]
    exact funext fun i => Cert.RefSide.total_eq _ _ i
  · rw [(hagree c).1, (hagree c).2]
    exact funext fun i => Cert.RefSide.coordTotal_eq _ _ i
  · rw [(hagree c).1, (hagree c).2]
    exact funext fun i => Cert.RefSide.confTotal_eq _ _ i
  · rw [(hagree c).1, (hagree c).2]
    exact funext fun i => Cert.RefSide.classTotal_eq _ _ i

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
